-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_18" .f32 0x3D638E39#32 ((1 / 18 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x40 : Shape := ⟨2, ![1048576, 40]⟩
abbrev S1048576x18 : Shape := ⟨2, ![1048576, 18]⟩
abbrev S_ : Shape := ⟨0, ![]⟩

class Facts : Prop where
  bcast_S_S1048576x40 : S_.BroadcastsInDim S1048576x40 (![] : Fin 0 → Fin S1048576x40.rank)
  reducesTo_S1048576x40_S_d0_1 : S1048576x40.ReducesTo [0, 1] S_
  h_S_ : 0 < S_.numel

variable [Facts]

def fn {F : FTy → Type} [FloatOps F] (main_arg0 : FVec F S1048576x40 .f32) (main_arg1 : IVec S1048576x18 32) : IVec S_ 1 :=
  let main_v0 : FVec F S1048576x40 .f32 := Host.absf main_arg0
  let main_cst : FVec F S_ .f32 := constant S_ .f32 0x7F800000#32
  let main_v1 : FVec F S1048576x40 .f32 := broadcastInDim S1048576x40 ![] bcast_S_S1048576x40 main_cst
  let main_v2 : IVec S1048576x40 1 := cmpf .olt main_v0 main_v1
  let main_c : IVec S_ 1 := constantI S_ 1 1#1
  let main_v3 : IVec S_ 1 := (fun x v => Host.reduce IntOp.andi x v reducesTo_S1048576x40_S_d0_1 h_S_) main_v2 main_c
  main_v3
-- ==== Kernel.lean ====
abbrev S1048576x40 : Shape := ⟨2, ![1048576, 40]⟩
abbrev S1048576x18 : Shape := ⟨2, ![1048576, 18]⟩
abbrev S16x128 : Shape := ⟨2, ![16, 128]⟩
abbrev S8192x40 : Shape := ⟨2, ![8192, 40]⟩
abbrev S8192x18 : Shape := ⟨2, ![8192, 18]⟩
abbrev S8x128 : Shape := ⟨2, ![8, 128]⟩
abbrev S1x1 : Shape := ⟨2, ![1, 1]⟩
abbrev S40x8192 : Shape := ⟨2, ![40, 8192]⟩
abbrev S18x8192 : Shape := ⟨2, ![18, 8192]⟩
abbrev S1x8192 : Shape := ⟨2, ![1, 8192]⟩
abbrev S8192 : Shape := ⟨1, ![8192]⟩
abbrev S1 : Shape := ⟨1, ![1]⟩
abbrev S_ : Shape := ⟨0, ![]⟩

abbrev nBuf : Space → Nat
  | .hbm => 5
  | .vmem => 7
  | .smem => 0
  | _ => 0

abbrev bufTy : (tb : Table) → Fin (tcTables nBuf tb) → BufTy
  | .hbm, ⟨0, _⟩ => ⟨S1048576x40, .f32⟩
  | .hbm, ⟨1, _⟩ => ⟨S1048576x18, .i32⟩
  | .hbm, ⟨2, _⟩ => ⟨S16x128, .f32⟩
  | .hbm, ⟨3, _⟩ => ⟨S_, .f32⟩
  | .hbm, ⟨4, _⟩ => ⟨S_, .f32⟩
  | .local _ .vmem, ⟨0, _⟩ => ⟨S8192x40, .f32⟩
  | .local _ .vmem, ⟨1, _⟩ => ⟨S8192x40, .f32⟩
  | .local _ .vmem, ⟨2, _⟩ => ⟨S8192x18, .i32⟩
  | .local _ .vmem, ⟨3, _⟩ => ⟨S8192x18, .i32⟩
  | .local _ .vmem, ⟨4, _⟩ => ⟨S8x128, .f32⟩
  | .local _ .vmem, ⟨5, _⟩ => ⟨S8x128, .f32⟩
  | .local _ .vmem, ⟨6, _⟩ => ⟨S1x1, .f32⟩
  | _, _ => ⟨S1048576x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c63_i32 : BitVec 32 := 63#32
  let v66 : BitVec 1 := Scalar.cmpi .eq arg1 c63_i32
  let v67 : BitVec 32 := Scalar.extui v66
  let c0_i32_19 : BitVec 32 := 0#32
  let v68 : BitVec 1 := Scalar.cmpi .ne v67 c0_i32_19
  v68

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x18 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8x128_S8x128_0_0 : ∀ a, (![0, 0] : Fin 2 → Nat) a + S8x128.size a ≤ S8x128.size a
  h_S8x128 : 0 < S8x128.numel
  inb_S8192x40_S8192x40_0_0 : ∀ a, (![0, 0] : Fin 2 → Nat) a + S8192x40.size a ≤ S8192x40.size a
  h_S8192x40 : 0 < S8192x40.numel
  inb_S8192x18_S8192x18_0_0 : ∀ a, (![0, 0] : Fin 2 → Nat) a + S8192x18.size a ≤ S8192x18.size a
  h_S8192x18 : 0 < S8192x18.numel
  transposes_S8192x40_p1_0_S40x8192 : S8192x40.Transposes [1, 0] S40x8192
  transposes_S8192x18_p1_0_S18x8192 : S8192x18.Transposes [1, 0] S18x8192
  slices_S40x8192_o4_0_S1x8192 : S40x8192.Slices ![4, 0] S1x8192
  slices_S40x8192_o8_0_S1x8192 : S40x8192.Slices ![8, 0] S1x8192
  slices_S40x8192_o9_0_S1x8192 : S40x8192.Slices ![9, 0] S1x8192
  slices_S40x8192_o11_0_S1x8192 : S40x8192.Slices ![11, 0] S1x8192
  slices_S40x8192_o13_0_S1x8192 : S40x8192.Slices ![13, 0] S1x8192
  slices_S40x8192_o14_0_S1x8192 : S40x8192.Slices ![14, 0] S1x8192
  slices_S40x8192_o15_0_S1x8192 : S40x8192.Slices ![15, 0] S1x8192
  slices_S40x8192_o16_0_S1x8192 : S40x8192.Slices ![16, 0] S1x8192
  slices_S40x8192_o17_0_S1x8192 : S40x8192.Slices ![17, 0] S1x8192
  slices_S40x8192_o18_0_S1x8192 : S40x8192.Slices ![18, 0] S1x8192
  slices_S40x8192_o20_0_S1x8192 : S40x8192.Slices ![20, 0] S1x8192
  slices_S40x8192_o22_0_S1x8192 : S40x8192.Slices ![22, 0] S1x8192
  slices_S40x8192_o23_0_S1x8192 : S40x8192.Slices ![23, 0] S1x8192
  slices_S40x8192_o26_0_S1x8192 : S40x8192.Slices ![26, 0] S1x8192
  slices_S40x8192_o29_0_S1x8192 : S40x8192.Slices ![29, 0] S1x8192
  slices_S40x8192_o30_0_S1x8192 : S40x8192.Slices ![30, 0] S1x8192
  slices_S40x8192_o31_0_S1x8192 : S40x8192.Slices ![31, 0] S1x8192
  slices_S40x8192_o36_0_S1x8192 : S40x8192.Slices ![36, 0] S1x8192
  concatenates_S1x8192_S1x8192_S1x8192_S1x8192_S1x8192_S1x8192_S1x8192_S1x8192_S1x8192_S1x8192_S1x8192_S1x8192_S1x8192_S1x8192_S1x8192_S1x8192_S1x8192_S1x8192_S18x8192_d0 : Shape.Concatenates [S1x8192, S1x8192, S1x8192, S1x8192, S1x8192, S1x8192, S1x8192, S1x8192, S1x8192, S1x8192, S1x8192, S1x8192, S1x8192, S1x8192, S1x8192, S1x8192, S1x8192, S1x8192] S18x8192 0
  reduces_S18x8192_S8192 : S18x8192.Reduces [0] S8192
  shapeCasts_S8192_S1x8192 : S8192.ShapeCasts S1x8192
  reduces_S1x8192_S1 : S1x8192.Reduces [1] S1
  shapeCasts_S1_S1x1 : S1.ShapeCasts S1x1
  inb_S8x128_S1x1_0_0 : ∀ a, (![0, 0] : Fin 2 → Nat) a + S1x1.size a ≤ S8x128.size a
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x40.size a ≤ S1048576x40.size a
  hwx0_0 : ∀ i : grid0.Coords, EltTy.bits .f32 = 32 ∨ (Rect.block (s := S1048576x40) S8192x40.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x18.size a ≤ S1048576x18.size a
  hwx0_1 : ∀ i : grid0.Coords, EltTy.bits .i32 = 32 ∨ (Rect.block (s := S1048576x18) S8192x18.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S8192x40.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x18.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S1048576x40 : Shape := ⟨2, ![1048576, 40]⟩
abbrev S1048576x18 : Shape := ⟨2, ![1048576, 18]⟩
abbrev S18 : Shape := ⟨1, ![18]⟩
abbrev S_ : Shape := ⟨0, ![]⟩
abbrev S18x1 : Shape := ⟨2, ![18, 1]⟩
abbrev S1048576 : Shape := ⟨1, ![1048576]⟩

abbrev nBuf : Space → Nat
  | .hbm => 56
  | .vmem => 0
  | .smem => 0
  | _ => 0

abbrev bufTy : (tb : Table) → Fin (tcTables nBuf tb) → BufTy
  | .hbm, ⟨0, _⟩ => ⟨S1048576x40, .f32⟩
  | .hbm, ⟨1, _⟩ => ⟨S1048576x18, .i32⟩
  | .hbm, ⟨2, _⟩ => ⟨S18, .i32⟩
  | .hbm, ⟨3, _⟩ => ⟨S_, .i32⟩
  | .hbm, ⟨4, _⟩ => ⟨S18, .i32⟩
  | .hbm, ⟨5, _⟩ => ⟨S18, .i1⟩
  | .hbm, ⟨6, _⟩ => ⟨S_, .i32⟩
  | .hbm, ⟨7, _⟩ => ⟨S18, .i32⟩
  | .hbm, ⟨8, _⟩ => ⟨S18, .i32⟩
  | .hbm, ⟨9, _⟩ => ⟨S18, .i32⟩
  | .hbm, ⟨10, _⟩ => ⟨S18x1, .i32⟩
  | .hbm, ⟨11, _⟩ => ⟨S1048576x18, .f32⟩
  | .hbm, ⟨12, _⟩ => ⟨S1048576x18, .f32⟩
  | .hbm, ⟨13, _⟩ => ⟨S_, .i32⟩
  | .hbm, ⟨14, _⟩ => ⟨S1048576x18, .i32⟩
  | .hbm, ⟨15, _⟩ => ⟨S1048576x18, .i1⟩
  | .hbm, ⟨16, _⟩ => ⟨S1048576x18, .f32⟩
  | .hbm, ⟨17, _⟩ => ⟨S_, .f32⟩
  | .hbm, ⟨18, _⟩ => ⟨S1048576x18, .f32⟩
  | .hbm, ⟨19, _⟩ => ⟨S1048576x18, .f32⟩
  | .hbm, ⟨20, _⟩ => ⟨S1048576x18, .f32⟩
  | .hbm, ⟨21, _⟩ => ⟨S1048576x18, .f32⟩
  | .hbm, ⟨22, _⟩ => ⟨S_, .f32⟩
  | .hbm, ⟨23, _⟩ => ⟨S1048576x18, .f32⟩
  | .hbm, ⟨24, _⟩ => ⟨S1048576x18, .f32⟩
  | .hbm, ⟨25, _⟩ => ⟨S1048576x18, .f32⟩
  | .hbm, ⟨26, _⟩ => ⟨S_, .f32⟩
  | .hbm, ⟨27, _⟩ => ⟨S1048576x18, .f32⟩
  | .hbm, ⟨28, _⟩ => ⟨S1048576x18, .f32⟩
  | .hbm, ⟨29, _⟩ => ⟨S1048576x18, .f32⟩
  | .hbm, ⟨30, _⟩ => ⟨S1048576x18, .f32⟩
  | .hbm, ⟨31, _⟩ => ⟨S_, .f32⟩
  | .hbm, ⟨32, _⟩ => ⟨S1048576, .f32⟩
  | .hbm, ⟨33, _⟩ => ⟨S_, .f32⟩
  | .hbm, ⟨34, _⟩ => ⟨S1048576, .f32⟩
  | .hbm, ⟨35, _⟩ => ⟨S1048576, .f32⟩
  | .hbm, ⟨36, _⟩ => ⟨S1048576, .f32⟩
  | .hbm, ⟨37, _⟩ => ⟨S_, .f32⟩
  | .hbm, ⟨38, _⟩ => ⟨S_, .f32⟩
  | .hbm, ⟨39, _⟩ => ⟨S1048576x18, .f32⟩
  | .hbm, ⟨40, _⟩ => ⟨S1048576x18, .f32⟩
  | .hbm, ⟨41, _⟩ => ⟨S1048576x18, .f32⟩
  | .hbm, ⟨42, _⟩ => ⟨S_, .f32⟩
  | .hbm, ⟨43, _⟩ => ⟨S1048576x18, .f32⟩
  | .hbm, ⟨44, _⟩ => ⟨S1048576x18, .f32⟩
  | .hbm, ⟨45, _⟩ => ⟨S1048576x18, .f32⟩
  | .hbm, ⟨46, _⟩ => ⟨S_, .f32⟩
  | .hbm, ⟨47, _⟩ => ⟨S1048576x18, .f32⟩
  | .hbm, ⟨48, _⟩ => ⟨S1048576x18, .f32⟩
  | .hbm, ⟨49, _⟩ => ⟨S1048576x18, .f32⟩
  | .hbm, ⟨50, _⟩ => ⟨S1048576x18, .f32⟩
  | .hbm, ⟨51, _⟩ => ⟨S_, .f32⟩
  | .hbm, ⟨52, _⟩ => ⟨S1048576, .f32⟩
  | .hbm, ⟨53, _⟩ => ⟨S1048576, .f32⟩
  | .hbm, ⟨54, _⟩ => ⟨S_, .f32⟩
  | .hbm, ⟨55, _⟩ => ⟨S_, .f32⟩
  | _, _ => ⟨S1048576x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_c_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_cst_8 : Ref sig .tc := ⟨.hbm, 38, rfl⟩
abbrev main_call0_v0 : Ref sig .tc := ⟨.hbm, 39, rfl⟩
abbrev main_call0_v1 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_cst_12 : Ref sig .tc := ⟨.hbm, 54, rfl⟩
abbrev main_v36 : Ref sig .tc := ⟨.hbm, 55, rfl⟩

abbrev nD : Nat := 1
abbrev τ : Topo := Topo.v7x

variable {F : FTy → Type} [FloatOps F]

class Facts₀ : Prop where
  bcast_S_S18 : S_.BroadcastsInDim S18 (![] : Fin 0 → Fin S18.rank)
  bcast_S18_S18x1_0 : S18.BroadcastsInDim S18x1 (![0] : Fin 1 → Fin S18x1.rank)
  bcast_S_S1048576x18 : S_.BroadcastsInDim S1048576x18 (![] : Fin 0 → Fin S1048576x18.rank)
  reducesTo_S1048576x18_S1048576_d1 : S1048576x18.ReducesTo [1] S1048576
  h_S_ : 0 < S_.numel
  bcast_S_S1048576 : S_.BroadcastsInDim S1048576 (![] : Fin 0 → Fin S1048576.rank)
  reducesTo_S1048576_S_d0 : S1048576.ReducesTo [0] S_
  gather_S1048576x40_S18x1_S1048576x18_0_1_n_n_1_1_10485761_wf : GatherDims.WF S1048576x40 S18x1 S1048576x18 [0] [1] [] [1] [] 1 ![1048576, 1]

variable [Facts₀]

def gather_S1048576x40_S18x1_S1048576x18_0_1_n_n_1_1_10485761 : GatherDims S1048576x40 S18x1 S1048576x18 where
  offsetDims := [0]
  collapsedSliceDims := [1]
  operandBatchingDims := []
  startIndicesBatchingDims := []
  startIndexMap := [1]
  indexVectorDim := 1
  sliceSizes := ![1048576, 1]
  wf := gather_S1048576x40_S18x1_S1048576x18_0_1_n_n_1_1_10485761_wf

class Facts : Prop extends Facts₀ where

variable [Facts]
-- ==== Proof.KRunsBits.lean ====
/-
  The kernel body run on any whole staging memrefs, once per control case, at any float instance.

  A grid step is FIRST of its half when its second coordinate is 0 and LAST when it is 63. The body
    * at a first step stores zero into the accumulator and zeros into the whole output block,
    * at every step loads the prediction and label tiles, computes the tile's sum of sample values and adds it to the
      accumulator,
    * at a last step copies the accumulator into cell (0,0) of the output block.
  So with `stepAcc x0 x1 a` the accumulator after a step that found `a` there and the tiles `x0`, `x1`:
    first step:   accumulator `stepAcc x0 x1 zero`, output block all zeros;
    middle step:  accumulator `stepAcc x0 x1 a`, output block untouched;
    last step:    accumulator `stepAcc x0 x1 a`, output block as found except cell (0,0), which holds the new accumulator.
-/
import proofs.«135765_j40261023433195_2_alg».proof.Proof.Gen.Kernel.Frame
import proofs.«135765_j40261023433195_2_alg».proof.Proof.Gen.Kernel.Skeleton
import Idealize.ShloMosaic.Lib.Pipeline.Value
import Idealize.ShloMosaic.Lib.WritesUnit
import Idealize.ShloMosaic.Lib.ValueIdx

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The offsets (0, 0), however spelt, are zero on every axis. -/
theorem zero2 : (![0, 0] : Fin 2 → ℕ) = fun _ => 0 := by
  funext a; match a with | ⟨0, _⟩ => rfl | ⟨1, _⟩ => rfl

/-- After a list of stores whose LAST one fills the whole shape, the buffer reads as that store's payload. -/
theorem read_last_whole {Val : EltTy → Type} [∀ e, Nonempty (Val e)] {sig : RefSig} {κ : Kind} {sp : Space} {S : Shape} {e : EltTy}
    (v : View sig κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

/-- An [8,128] block with cell (0,0) replaced by the one entry of a [1,1] vector. -/
def cornerOver {α : Type} (a : S1x1.Idx → α) (z : S8x128.Idx → α) : S8x128.Idx → α :=
  fun y => if (y 0).val = 0 ∧ (y 1).val = 0 then a (ValueIdx.ix2 (0 : Fin 1) (0 : Fin 1)) else z y

/-- One [1,1] store at offsets (0,0) into an [8,128] buffer leaves the buffer as it was except at cell (0,0). -/
theorem read_corner_store {Val : EltTy → Type} {sig : RefSig} {κ : Kind} {sp : Space}
    (v : View sig κ sp S8x128 .f32) (f : v.ty.Contents Val) (w : S1x1.Idx → Val .f32) :
    v.read Val (v.writes Val f [(⟨Rect.unit (s := S8x128) ![0, 0] S1x1.size inb_S8x128_S1x1_0_0, w⟩ : View.Piece Val S8x128 .f32)])
      = cornerOver w (v.read Val f) := by
  funext y
  unfold cornerOver
  by_cases hy : (y 0).val = 0 ∧ (y 1).val = 0
  · rw [if_pos hy]
    exact View.read_writes_cons_unit_of_mem v f inb_S8x128_S1x1_0_0 w [] y (ValueIdx.ix2 (0 : Fin 1) (0 : Fin 1)) rfl
      (fun a => by match a with | ⟨0, _⟩ => exact hy.1 | ⟨1, _⟩ => exact hy.2)
  · rw [if_neg hy]
    by_cases h0 : (y 0).val = 0
    · have h1 : ¬ (y 1).val = 0 := fun h => hy ⟨h0, h⟩
      exact (View.read_writes_cons_unit_of_not_mem v f inb_S8x128_S1x1_0_0 w [] y rfl 1
        (Or.inr (by show 0 + 1 ≤ (y 1).val; omega))).trans rfl
    · exact (View.read_writes_cons_unit_of_not_mem v f inb_S8x128_S1x1_0_0 w [] y rfl 0
        (Or.inr (by show 0 + 1 ≤ (y 0).val; omega))).trans rfl

/-- The step is the first of its half: its second grid coordinate is 0. -/
abbrev firstStep (i : grid0.Coords) : Prop := k0_cond1 i = 1#1
/-- The step is the last of its half: its second grid coordinate is 63. -/
abbrev lastStep (i : grid0.Coords) : Prop := k0_cond2 i = 1#1

/-- The accumulator after a step that found `a` in it and loaded the tiles `x0` (predictions) and `x1` (labels):
    `a` plus the tile's sum of sample values. -/
def stepAcc (x0 : Vec F S8192x40 .f32) (x1 : Vec F S8192x18 .i32) (a : Vec F S1x1 .f32) : Vec F S1x1 .f32 :=
  k0_pay1 (k0_pay5 x0) (k0_pay6 x1) (k0_pay7 x0 x1) a

set_option maxHeartbeats 1000000 in
/-- A first step that is not a last one: from any accumulator and output block, the accumulator ends at the tile's sum
    over zero and the output block at zeros. -/
theorem runFirst (c : Dev nD) (i : grid0.Coords) (arg2 : Memref sig .tc .vmem S8192x40 .f32) (harg2 : arg2.IsWhole) (arg3 : Memref sig .tc .vmem S8192x18 .i32) (harg3 : arg3.IsWhole) (arg4 : Memref sig .tc .vmem S8x128 .f32) (harg4 : arg4.IsWhole) (arg5 : Memref sig .tc .vmem S1x1 .f32) (harg5 : arg5.IsWhole) (hc0 : firstStep i) (hc1 : ¬lastStep i)
    (x0 : Vec F S8192x40 .f32) (x1 : Vec F S8192x18 .i32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (k0_pay3 (F := F)) ∗ owns (c : Thread nD τ) arg5 fullShare (stepAcc x0 x1 (k0_pay2 (F := F)))) -∗ K ⟨⟩))
      ⊢ wp frame (wpE (defs₀ (F := F)) Variants.none c none) E (cc0__focal_loss_kernel i arg2 harg2 arg3 harg3 arg4 harg4 arg5 harg5) K := by
  simp only [cc0__focal_loss_kernel_eq_skeleton]; unfold cc0__focal_loss_kernel_skel
  simp only [k0_part1_eq_skeleton]
  unfold owns
  iintro ⟨⟨%f0, %hf0, H0⟩, ⟨%f1, %hf1, H1⟩, ⟨%d2, %f2, -, H2⟩, ⟨%ds0, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    exact read_last_whole _ _ zero2 _ _ _
  iexists _; isplitr; swap; · iexact HS0
  ipureintro
  refine (read_last_whole _ _ zero2 _ _ _).trans ?_
  sl_unfold_run_names
  unfold stepAcc
  rw [View.readCov_unit_zero _ zero2]
  simp only [View.readAt_eq_ld, harg2.read_unread, harg3.read_unread, View.ld_unit_zero (S := S8192x40) zero2, View.ld_unit_zero (S := S8192x18) zero2]

set_option maxHeartbeats 1000000 in
/-- A step that is neither first nor last: the accumulator gains the tile's sum, the output block is not touched. -/
theorem runMid (c : Dev nD) (i : grid0.Coords) (arg2 : Memref sig .tc .vmem S8192x40 .f32) (harg2 : arg2.IsWhole) (arg3 : Memref sig .tc .vmem S8192x18 .i32) (harg3 : arg3.IsWhole) (arg4 : Memref sig .tc .vmem S8x128 .f32) (harg4 : arg4.IsWhole) (arg5 : Memref sig .tc .vmem S1x1 .f32) (harg5 : arg5.IsWhole) (hc0 : ¬firstStep i) (hc1 : ¬lastStep i)
    (x0 : Vec F S8192x40 .f32) (x1 : Vec F S8192x18 .i32) (xo : Vec F S8x128 .f32) (xs : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare xo ∗ owns (c : Thread nD τ) arg5 fullShare (stepAcc x0 x1 xs)) -∗ K ⟨⟩))
      ⊢ wp frame (wpE (defs₀ (F := F)) Variants.none c none) E (cc0__focal_loss_kernel i arg2 harg2 arg3 harg3 arg4 harg4 arg5 harg5) K := by
  simp only [cc0__focal_loss_kernel_eq_skeleton]; unfold cc0__focal_loss_kernel_skel
  simp only [k0_part1_eq_skeleton]
  iintro ⟨H0, H1, H2, HS0, Hk⟩
  unfold owns
  icases H0 with ⟨%f0, %hf0, H0⟩; icases H1 with ⟨%f1, %hf1, H1⟩; icases HS0 with ⟨%fs0, %hfs0, HS0⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexact H2
  iexists _; isplitr; swap; · iexact HS0
  ipureintro
  refine (read_last_whole _ _ zero2 _ _ _).trans ?_
  sl_unfold_run_names
  unfold stepAcc
  simp only [View.readAt_eq_ld, harg2.read_unread, harg3.read_unread, harg5.read_unread, View.ld_unit_zero (S := S8192x40) zero2, View.ld_unit_zero (S := S8192x18) zero2, View.ld_unit_zero (S := S1x1) zero2]

set_option maxHeartbeats 1000000 in
/-- A last step that is not a first one: the accumulator gains the tile's sum and is copied into cell (0,0) of the
    output block, whose other cells stay as found. -/
theorem runLast (c : Dev nD) (i : grid0.Coords) (arg2 : Memref sig .tc .vmem S8192x40 .f32) (harg2 : arg2.IsWhole) (arg3 : Memref sig .tc .vmem S8192x18 .i32) (harg3 : arg3.IsWhole) (arg4 : Memref sig .tc .vmem S8x128 .f32) (harg4 : arg4.IsWhole) (arg5 : Memref sig .tc .vmem S1x1 .f32) (harg5 : arg5.IsWhole) (hc0 : ¬firstStep i) (hc1 : lastStep i)
    (x0 : Vec F S8192x40 .f32) (x1 : Vec F S8192x18 .i32) (xo : Vec F S8x128 .f32) (xs : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare (cornerOver (stepAcc x0 x1 xs) xo) ∗ owns (c : Thread nD τ) arg5 fullShare (stepAcc x0 x1 xs)) -∗ K ⟨⟩))
      ⊢ wp frame (wpE (defs₀ (F := F)) Variants.none c none) E (cc0__focal_loss_kernel i arg2 harg2 arg3 harg3 arg4 harg4 arg5 harg5) K := by
  simp only [cc0__focal_loss_kernel_eq_skeleton]; unfold cc0__focal_loss_kernel_skel
  simp only [k0_part1_eq_skeleton]
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  have hacc : ∀ (L : List (View.Piece (Elt F) S1x1 .f32)) (a : Vec F S1x1 .f32),
      a = View.readAt (Elt F) arg5.view (Rect.unit (s := S1x1) ![0, 0] S1x1.size inb_S1x1_S1x1_0_0).toLoadRect (harg5.unread xs) →
      k0_pay1 (k0_pay5 (View.readAt (Elt F) arg2.view (Rect.unit (s := S8192x40) ![0, 0] S8192x40.size inb_S8192x40_S8192x40_0_0).toLoadRect (harg2.unread x0)))
        (k0_pay6 (View.readAt (Elt F) arg3.view (Rect.unit (s := S8192x18) ![0, 0] S8192x18.size inb_S8192x18_S8192x18_0_0).toLoadRect (harg3.unread x1)))
        (k0_pay7 (View.readAt (Elt F) arg2.view (Rect.unit (s := S8192x40) ![0, 0] S8192x40.size inb_S8192x40_S8192x40_0_0).toLoadRect (harg2.unread x0))
          (View.readAt (Elt F) arg3.view (Rect.unit (s := S8192x18) ![0, 0] S8192x18.size inb_S8192x18_S8192x18_0_0).toLoadRect (harg3.unread x1))) a
        = stepAcc x0 x1 xs := by
    intro L a ha
    subst ha
    unfold stepAcc
    simp only [View.readAt_eq_ld, harg2.read_unread, harg3.read_unread, harg5.read_unread, View.ld_unit_zero (S := S8192x40) zero2, View.ld_unit_zero (S := S8192x18) zero2, View.ld_unit_zero (S := S1x1) zero2]
  isplitl [H2]
  · iexists _; isplitr; swap; · iexact H2
    ipureintro
    refine (read_corner_store _ _ _).trans ?_
    rw [harg4.read_unread]
    refine congrArg (fun a => cornerOver a xo) ?_
    sl_unfold_run_names
    rw [View.readCov_unit_zero _ zero2]
    exact hacc [] _ rfl
  iexists _; isplitr; swap; · iexact HS0
  ipureintro
  refine (read_last_whole _ _ zero2 _ _ _).trans ?_
  sl_unfold_run_names
  exact hacc [] _ rfl

end Cert.Kernel.Body

end
-- ==== Proof.KBodyBits.lean ====
/-
  The frame run of the kernel's pipeline with every buffer's contents named, at any float instance.

  The 128 grid steps run in order; step t belongs to half t / 64 and is the first of its half when t % 64 = 0, the last
  when t % 64 = 63. Between steps the accumulator scratch holds `accAt t`: the tile sums of the half so far, added one
  by one onto zero. The output window's block is the half's [8,128] block: zeros after the half's first step,
  untouched through the middle steps, and at the half's last step zeros except cell (0,0), which holds the half's total
  — that is what is written back to the [16,128] result array.
-/
import proofs.«135765_j40261023433195_2_alg».proof.Proof.KRunsBits

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's schedule, decided once -/

theorem first_iff : ∀ t : Fin cfg0.N, firstStep (grid0.coords t) ↔ t.val % 64 = 0 :=
  (by decide +kernel : ∀ t : Fin grid0.N, firstStep (grid0.coords t) ↔ t.val % 64 = 0)
theorem last_iff : ∀ t : Fin cfg0.N, lastStep (grid0.coords t) ↔ t.val % 64 = 63 :=
  (by decide +kernel : ∀ t : Fin grid0.N, lastStep (grid0.coords t) ↔ t.val % 64 = 63)
/-- The input windows are stored into by no step (they are only read), so they are never idle. -/
theorem live0 : ∀ t : Fin cfg0.N, cfg0.idle 0 (grid0.coords t) = false := by decide +kernel
theorem live1 : ∀ t : Fin cfg0.N, cfg0.idle 1 (grid0.coords t) = false := by decide +kernel
/-- The output window is stored into at the first and the last step of a half, and at no other. -/
theorem live2_first : ∀ t : Fin cfg0.N, t.val % 64 = 0 → cfg0.idle 2 (grid0.coords t) = false := by decide +kernel
theorem live2_last : ∀ t : Fin cfg0.N, t.val % 64 = 63 → cfg0.idle 2 (grid0.coords t) = false := by decide +kernel
theorem idle2_mid : ∀ t : Fin cfg0.N, ¬t.val % 64 = 0 → ¬t.val % 64 = 63 → cfg0.idle 2 (grid0.coords t) = true := by decide +kernel
/-- An output window is never fetched. -/
theorem fetch2 : ∀ t : Fin cfg0.N, (cfg0.win 2).fetch t = false :=
  (by decide +kernel : ∀ t : Fin grid0.N, win0_2.fetch t = false)

/-- The staging memrefs the pipeline hands the body at step `t` are whole buffers. -/
abbrev hs0 (t : Fin cfg0.N) : (st0_0 t).IsWhole := hstage0_0 ((cfg0.slots t 0).cast nbuf0_0)
abbrev hs1 (t : Fin cfg0.N) : (st0_1 t).IsWhole := hstage0_1 ((cfg0.slots t 1).cast nbuf0_1)
abbrev hs2 (t : Fin cfg0.N) : (st0_2 t).IsWhole := hstage0_2 ((cfg0.slots t 2).cast nbuf0_2)
/-- The accumulator scratch, a whole buffer of the kernel's own. -/
abbrev scr : Memref sig .tc .vmem S1x1 .f32 := Memref.whole cc0_scratch0

/-- What the launch lends the body besides the windows: the accumulator scratch at some contents and the generator
    register at some state. -/
theorem PhiA_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-! ## What the accumulator and the output block hold after each step -/

/-- The accumulator after step `n`: the step's tile sum added to zero at the first step of a half, to what the step
    before left otherwise. -/
def accAt (c : Dev nD) : (n : ℕ) → n < cfg0.N → Vec F S1x1 .f32
  | 0, hn => stepAcc (iblk m c 0 ⟨0, hn⟩) (iblk m c 1 ⟨0, hn⟩) (k0_pay2 (F := F))
  | n + 1, hn => stepAcc (iblk m c 0 ⟨n + 1, hn⟩) (iblk m c 1 ⟨n + 1, hn⟩)
      (if (n + 1) % 64 = 0 then (k0_pay2 (F := F)) else accAt c n (Nat.lt_of_succ_lt hn))

theorem accAt_first (c : Dev nD) (t : Fin cfg0.N) (h0 : t.val % 64 = 0) :
    accAt m c t.val t.isLt = stepAcc (iblk m c 0 t) (iblk m c 1 t) (k0_pay2 (F := F)) := by
  obtain ⟨n, hn⟩ := t
  cases n with
  | zero => rfl
  | succ n => exact congrArg (stepAcc _ _) (if_pos h0)

theorem accAt_next (c : Dev nD) (t : Fin cfg0.N) (h0 : ¬t.val % 64 = 0) :
    accAt m c t.val t.isLt = stepAcc (iblk m c 0 t) (iblk m c 1 t)
      (accAt m c (t.val - 1) (Nat.lt_of_le_of_lt (Nat.sub_le _ _) t.isLt)) := by
  obtain ⟨n, hn⟩ := t
  cases n with
  | zero => exact absurd (Nat.zero_mod _) h0
  | succ n => exact congrArg (stepAcc _ _) (if_neg h0)

/-- The output block after step `t` (where the step stores into it): zeros, with the half's total in cell (0,0) at
    the half's last step. -/
def outAt (c : Dev nD) (t : Fin cfg0.N) : Vec F S8x128 .f32 :=
  if t.val % 64 = 63 then cornerOver (accAt m c t.val t.isLt) (k0_pay3 (F := F)) else (k0_pay3 (F := F))

/-- The invariant between steps: before the first, what the launch lends; afterwards the accumulator at `accAt` of
    the step before, and the generator register. -/
def PhiS (c : Dev nD) : (n : ℕ) → n ≤ cfg0.N → sProp 𝕄
  | 0, _ => Pipeline.ΦA spec0 c
  | n + 1, hn => iprop(iprop(owns (c : Thread nD τ) scr fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scr fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scr fullShare (accAt m c (n - 1) (by omega))) ∗ (∃ r, prngReg c r)) := by
  cases n with
  | zero => exact absurd rfl hz
  | succ n => rfl

/-! ## The pipeline's proof data -/

/-- The arrays as the region finds them; after the body at step `t` each input's buffer at its block and the output's
    at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outAt m c t := by dsimp only [dats]

/-- Each input's current staging buffer holds its block at every step. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- What a step that stored into the output block leaves there for the next step (the block is whole: nothing of the
    buffer's earlier contents shows). -/
theorem left_live (c : Dev nD) (t : Fin cfg0.N) (d) (h : cfg0.idle 2 (cfg0.grid.coords t) = false) :
    (dats m 0 c).left 2 t d = (dats m 0 c).after 2 t := by
  unfold Dat.left; rw [h]; unfold Dat.kept
  rw [Pipeline.fill_of_clip_none 2 _ (fun _ => rfl) d ((dats m 0 c).after 2 t), Window.fill_cut]
/-- What a step that did not store into it leaves: what it found. -/
theorem left_idle (c : Dev nD) (t : Fin cfg0.N) (d) (h : cfg0.idle 2 (cfg0.grid.coords t) = true) :
    (dats m 0 c).left 2 t d = (dats m 0 c).before 2 t d := by
  unfold Dat.left; rw [h]

/-- At every step but the first of a half the output block's buffer holds zeros: the half's first step stored them,
    no step in between stores into it, and it is written back only after the half's last step. -/
theorem before2 (c : Dev nD) (t : Fin cfg0.N) (h0 : ¬t.val % 64 = 0) (d) :
    (dats m 0 c).before 2 t d = (k0_pay3 (F := F)) := by
  obtain ⟨n, hn⟩ := t
  induction n with
  | zero => exact absurd (Nat.zero_mod _) h0
  | succ n ih =>
    have hN : n + 1 < 128 := lt_of_lt_of_eq hn (show cfg0.N = 128 from N_0)
    have hn' : n < cfg0.N := Nat.lt_of_succ_lt hn
    have h0' : ¬(n + 1) % 64 = 0 := h0
    have hfl : ¬(cfg0.win 2).flush ⟨n, hn'⟩ = true := fun h => by
      have := (flush0_2 _).mp h
      dsimp only at this
      omega
    refine ((dats m 0 c).before_of_pos 2 ⟨n + 1, hn⟩ (Nat.succ_ne_zero n) (fetch2 _) d).trans ?_
    refine (if_neg hfl).trans ?_
    by_cases hz : n % 64 = 0
    · refine (left_live m c ⟨n, hn'⟩ d (live2_first ⟨n, hn'⟩ hz)).trans ?_
      rw [after2]; unfold outAt
      exact if_neg (by show ¬n % 64 = 63; omega)
    · refine (left_idle m c ⟨n, hn'⟩ d (idle2_mid ⟨n, hn'⟩ hz (by show ¬n % 64 = 63; omega))).trans ?_
      exact ih hn' hz

/-- What the body obligation asks of each window's buffer after the body. -/
theorem leaves0 (c : Dev nD) (t : Fin cfg0.N) :
    (dats m 0 c).leavesExact 0 t = owns (c : Thread nD τ) (st0_0 t) fullShare (iblk m c 0 t) := by
  unfold Dat.leavesExact; rw [live0 t, after0]
theorem leaves1 (c : Dev nD) (t : Fin cfg0.N) :
    (dats m 0 c).leavesExact 1 t = owns (c : Thread nD τ) (st0_1 t) fullShare (iblk m c 1 t) := by
  unfold Dat.leavesExact; rw [live1 t, after1]
theorem leaves2_first (c : Dev nD) (t : Fin cfg0.N) (h0 : t.val % 64 = 0) :
    (dats m 0 c).leavesExact 2 t = owns (c : Thread nD τ) (st0_2 t) fullShare (k0_pay3 (F := F)) := by
  unfold Dat.leavesExact; rw [live2_first t h0, after2]; unfold outAt; rw [if_neg (by omega)]
theorem leaves2_last (c : Dev nD) (t : Fin cfg0.N) (h1 : t.val % 64 = 63) :
    (dats m 0 c).leavesExact 2 t
      = owns (c : Thread nD τ) (st0_2 t) fullShare (cornerOver (accAt m c t.val t.isLt) (k0_pay3 (F := F))) := by
  unfold Dat.leavesExact; rw [live2_last t h1, after2]; unfold outAt; rw [if_pos h1]
theorem leaves2_mid (c : Dev nD) (t : Fin cfg0.N) (h0 : ¬t.val % 64 = 0) (h1 : ¬t.val % 64 = 63) :
    (dats m 0 c).leavesExact 2 t
      = iprop(∃ d, owns (c : Thread nD τ) (st0_2 t) fullShare ((dats m 0 c).before 2 t d)) :=
  (dats m 0 c).leavesExact_idle 2 t (idle2_mid t h0 h1)
    (Bool.eq_false_iff.mpr fun h => h1 ((flush0_2 t).mp h))

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4000000 in
/-- The body at any step: the inputs' buffers hold their blocks; the step is a first, a middle or a last one of its
    half, and the matching run applies, the accumulator handed over at what the step before left (at anything before
    the very first step) and taken back at this step's value. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1]
  have hN : t.val < 128 := lt_of_lt_of_eq t.isLt (show cfg0.N = 128 from N_0)
  by_cases h0 : t.val % 64 = 0
  · have h1 : ¬t.val % 64 = 63 := by omega
    rw [leaves2_first m c t h0, accAt_first m c t h0]
    by_cases hz : t.val = 0
    · rw [PhiS_castSucc m c t, PhiS_zero m c _ _ hz, PhiA_eq]
      iintro ⟨⟨HS0, Hg⟩, Ho, ⟨%d0, H0⟩, ⟨%d1, H1⟩, ⟨%d2, H2⟩⟩
      iapply (runFirst c (grid0.coords t) _ (hs0 t) _ (hs1 t) _ (hs2 t) _ (Memref.isWhole_whole _) ((first_iff t).mpr h0) (fun h => h1 ((last_iff t).mp h)) (iblk m c 0 t) (iblk m c 1 t) Set.univ _)
      isplitl [H0]; · iexact H0
      isplitl [H1]; · iexact H1
      isplitl [H2]; · iexists _; iexact H2
      isplitl [HS0]; · iexact HS0
      iintro ⟨H0, H1, H2, HS0⟩
      isplitl [HS0 Hg]
      · isplitl [HS0]; · iexact HS0
        iexact Hg
      isplitl [Ho]; · iexact Ho
      isplitl [H0]; · iexact H0
      isplitl [H1]; · iexact H1
      iexact H2
    · rw [PhiS_castSucc m c t, PhiS_pos m c _ _ hz]
      iintro ⟨⟨HS0, Hg⟩, Ho, ⟨%d0, H0⟩, ⟨%d1, H1⟩, ⟨%d2, H2⟩⟩
      iapply (runFirst c (grid0.coords t) _ (hs0 t) _ (hs1 t) _ (hs2 t) _ (Memref.isWhole_whole _) ((first_iff t).mpr h0) (fun h => h1 ((last_iff t).mp h)) (iblk m c 0 t) (iblk m c 1 t) Set.univ _)
      isplitl [H0]; · iexact H0
      isplitl [H1]; · iexact H1
      isplitl [H2]; · iexists _; iexact H2
      isplitl [HS0]; · iexists _; iexact HS0
      iintro ⟨H0, H1, H2, HS0⟩
      isplitl [HS0 Hg]
      · isplitl [HS0]; · iexact HS0
        iexact Hg
      isplitl [Ho]; · iexact Ho
      isplitl [H0]; · iexact H0
      isplitl [H1]; · iexact H1
      iexact H2
  · have hz : t.val ≠ 0 := fun h => h0 (by rw [h])
    rw [PhiS_castSucc m c t, PhiS_pos m c _ _ hz, accAt_next m c t h0]
    by_cases h1 : t.val % 64 = 63
    · rw [leaves2_last m c t h1, accAt_next m c t h0]
      simp only [before2 m c t h0]
      iintro ⟨⟨HS0, Hg⟩, Ho, ⟨%d0, H0⟩, ⟨%d1, H1⟩, ⟨%d2, H2⟩⟩
      iapply (runLast c (grid0.coords t) _ (hs0 t) _ (hs1 t) _ (hs2 t) _ (Memref.isWhole_whole _) (fun h => h0 ((first_iff t).mp h)) ((last_iff t).mpr h1) (iblk m c 0 t) (iblk m c 1 t) (k0_pay3 (F := F)) _ Set.univ _)
      isplitl [H0]; · iexact H0
      isplitl [H1]; · iexact H1
      isplitl [H2]; · iexact H2
      isplitl [HS0]; · iexact HS0
      iintro ⟨H0, H1, H2, HS0⟩
      isplitl [HS0 Hg]
      · isplitl [HS0]; · iexact HS0
        iexact Hg
      isplitl [Ho]; · iexact Ho
      isplitl [H0]; · iexact H0
      isplitl [H1]; · iexact H1
      iexact H2
    · rw [leaves2_mid m c t h0 h1]
      iintro ⟨⟨HS0, Hg⟩, Ho, ⟨%d0, H0⟩, ⟨%d1, H1⟩, ⟨%d2, H2⟩⟩
      iapply (runMid c (grid0.coords t) _ (hs0 t) _ (hs1 t) _ (hs2 t) _ (Memref.isWhole_whole _) (fun h => h0 ((first_iff t).mp h)) (fun h => h1 ((last_iff t).mp h)) (iblk m c 0 t) (iblk m c 1 t) ((dats m 0 c).before 2 t d2) _ Set.univ _)
      isplitl [H0]; · iexact H0
      isplitl [H1]; · iexact H1
      isplitl [H2]; · iexact H2
      isplitl [HS0]; · iexact HS0
      iintro ⟨H0, H1, H2, HS0⟩
      isplitl [HS0 Hg]
      · isplitl [HS0]; · iexact HS0
        iexact Hg
      isplitl [Ho]; · iexact Ho
      isplitl [H0]; · iexact H0
      isplitl [H1]; · iexact H1
      iexists d2; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA_eq]
  iintro ⟨HS0, Hg⟩
  isplitl [HS0]
  · iexists _; iexact HS0
  iexact Hg

/-! ## The run -/

set_option backward.isDefEq.respectTransparency.types false in
/-- Every weakly fair execution of @main terminates, every array of the pipeline ends at what the write-backs of the
    proof data leave, and every other unscoped buffer at what the two host lines after the region compute. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KRunsIdeal.lean ====
/-
  The kernel body run on any whole staging memrefs, once per control case, at any float instance.

  A grid step is FIRST of its half when its second coordinate is 0 and LAST when it is 63. The body
    * at a first step stores zero into the accumulator and zeros into the whole output block,
    * at every step loads the prediction and label tiles, computes the tile's sum of sample values and adds it to the
      accumulator,
    * at a last step copies the accumulator into cell (0,0) of the output block.
  So with `stepAcc x0 x1 a` the accumulator after a step that found `a` there and the tiles `x0`, `x1`:
    first step:   accumulator `stepAcc x0 x1 zero`, output block all zeros;
    middle step:  accumulator `stepAcc x0 x1 a`, output block untouched;
    last step:    accumulator `stepAcc x0 x1 a`, output block as found except cell (0,0), which holds the new accumulator.
-/
import proofs.«135765_j40261023433195_2_alg».proof.Proof.Gen.KernelIdeal.Frame
import proofs.«135765_j40261023433195_2_alg».proof.Proof.Gen.KernelIdeal.Skeleton
import Idealize.ShloMosaic.Lib.Pipeline.Value
import Idealize.ShloMosaic.Lib.WritesUnit
import Idealize.ShloMosaic.Lib.ValueIdx

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The offsets (0, 0), however spelt, are zero on every axis. -/
theorem zero2 : (![0, 0] : Fin 2 → ℕ) = fun _ => 0 := by
  funext a; match a with | ⟨0, _⟩ => rfl | ⟨1, _⟩ => rfl

/-- After a list of stores whose LAST one fills the whole shape, the buffer reads as that store's payload. -/
theorem read_last_whole {Val : EltTy → Type} [∀ e, Nonempty (Val e)] {sig : RefSig} {κ : Kind} {sp : Space} {S : Shape} {e : EltTy}
    (v : View sig κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

/-- An [8,128] block with cell (0,0) replaced by the one entry of a [1,1] vector. -/
def cornerOver {α : Type} (a : S1x1.Idx → α) (z : S8x128.Idx → α) : S8x128.Idx → α :=
  fun y => if (y 0).val = 0 ∧ (y 1).val = 0 then a (ValueIdx.ix2 (0 : Fin 1) (0 : Fin 1)) else z y

/-- One [1,1] store at offsets (0,0) into an [8,128] buffer leaves the buffer as it was except at cell (0,0). -/
theorem read_corner_store {Val : EltTy → Type} {sig : RefSig} {κ : Kind} {sp : Space}
    (v : View sig κ sp S8x128 .f32) (f : v.ty.Contents Val) (w : S1x1.Idx → Val .f32) :
    v.read Val (v.writes Val f [(⟨Rect.unit (s := S8x128) ![0, 0] S1x1.size inb_S8x128_S1x1_0_0, w⟩ : View.Piece Val S8x128 .f32)])
      = cornerOver w (v.read Val f) := by
  funext y
  unfold cornerOver
  by_cases hy : (y 0).val = 0 ∧ (y 1).val = 0
  · rw [if_pos hy]
    exact View.read_writes_cons_unit_of_mem v f inb_S8x128_S1x1_0_0 w [] y (ValueIdx.ix2 (0 : Fin 1) (0 : Fin 1)) rfl
      (fun a => by match a with | ⟨0, _⟩ => exact hy.1 | ⟨1, _⟩ => exact hy.2)
  · rw [if_neg hy]
    by_cases h0 : (y 0).val = 0
    · have h1 : ¬ (y 1).val = 0 := fun h => hy ⟨h0, h⟩
      exact (View.read_writes_cons_unit_of_not_mem v f inb_S8x128_S1x1_0_0 w [] y rfl 1
        (Or.inr (by show 0 + 1 ≤ (y 1).val; omega))).trans rfl
    · exact (View.read_writes_cons_unit_of_not_mem v f inb_S8x128_S1x1_0_0 w [] y rfl 0
        (Or.inr (by show 0 + 1 ≤ (y 0).val; omega))).trans rfl

/-- The step is the first of its half: its second grid coordinate is 0. -/
abbrev firstStep (i : grid0.Coords) : Prop := k0_cond1 i = 1#1
/-- The step is the last of its half: its second grid coordinate is 63. -/
abbrev lastStep (i : grid0.Coords) : Prop := k0_cond2 i = 1#1

/-- The accumulator after a step that found `a` in it and loaded the tiles `x0` (predictions) and `x1` (labels):
    `a` plus the tile's sum of sample values. -/
def stepAcc (x0 : Vec F S8192x40 .f32) (x1 : Vec F S8192x18 .i32) (a : Vec F S1x1 .f32) : Vec F S1x1 .f32 :=
  k0_pay1 (k0_pay5 x0) (k0_pay6 x1) (k0_pay7 x0 x1) a

set_option maxHeartbeats 1000000 in
/-- A first step that is not a last one: from any accumulator and output block, the accumulator ends at the tile's sum
    over zero and the output block at zeros. -/
theorem runFirst (c : Dev nD) (i : grid0.Coords) (arg2 : Memref sig .tc .vmem S8192x40 .f32) (harg2 : arg2.IsWhole) (arg3 : Memref sig .tc .vmem S8192x18 .i32) (harg3 : arg3.IsWhole) (arg4 : Memref sig .tc .vmem S8x128 .f32) (harg4 : arg4.IsWhole) (arg5 : Memref sig .tc .vmem S1x1 .f32) (harg5 : arg5.IsWhole) (hc0 : firstStep i) (hc1 : ¬lastStep i)
    (x0 : Vec F S8192x40 .f32) (x1 : Vec F S8192x18 .i32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (k0_pay3 (F := F)) ∗ owns (c : Thread nD τ) arg5 fullShare (stepAcc x0 x1 (k0_pay2 (F := F)))) -∗ K ⟨⟩))
      ⊢ wp frame (wpE (defs₀ (F := F)) Variants.none c none) E (cc0__focal_loss_kernel i arg2 harg2 arg3 harg3 arg4 harg4 arg5 harg5) K := by
  simp only [cc0__focal_loss_kernel_eq_skeleton]; unfold cc0__focal_loss_kernel_skel
  simp only [k0_part1_eq_skeleton]
  unfold owns
  iintro ⟨⟨%f0, %hf0, H0⟩, ⟨%f1, %hf1, H1⟩, ⟨%d2, %f2, -, H2⟩, ⟨%ds0, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    exact read_last_whole _ _ zero2 _ _ _
  iexists _; isplitr; swap; · iexact HS0
  ipureintro
  refine (read_last_whole _ _ zero2 _ _ _).trans ?_
  sl_unfold_run_names
  unfold stepAcc
  rw [View.readCov_unit_zero _ zero2]
  simp only [View.readAt_eq_ld, harg2.read_unread, harg3.read_unread, View.ld_unit_zero (S := S8192x40) zero2, View.ld_unit_zero (S := S8192x18) zero2]

set_option maxHeartbeats 1000000 in
/-- A step that is neither first nor last: the accumulator gains the tile's sum, the output block is not touched. -/
theorem runMid (c : Dev nD) (i : grid0.Coords) (arg2 : Memref sig .tc .vmem S8192x40 .f32) (harg2 : arg2.IsWhole) (arg3 : Memref sig .tc .vmem S8192x18 .i32) (harg3 : arg3.IsWhole) (arg4 : Memref sig .tc .vmem S8x128 .f32) (harg4 : arg4.IsWhole) (arg5 : Memref sig .tc .vmem S1x1 .f32) (harg5 : arg5.IsWhole) (hc0 : ¬firstStep i) (hc1 : ¬lastStep i)
    (x0 : Vec F S8192x40 .f32) (x1 : Vec F S8192x18 .i32) (xo : Vec F S8x128 .f32) (xs : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare xo ∗ owns (c : Thread nD τ) arg5 fullShare (stepAcc x0 x1 xs)) -∗ K ⟨⟩))
      ⊢ wp frame (wpE (defs₀ (F := F)) Variants.none c none) E (cc0__focal_loss_kernel i arg2 harg2 arg3 harg3 arg4 harg4 arg5 harg5) K := by
  simp only [cc0__focal_loss_kernel_eq_skeleton]; unfold cc0__focal_loss_kernel_skel
  simp only [k0_part1_eq_skeleton]
  iintro ⟨H0, H1, H2, HS0, Hk⟩
  unfold owns
  icases H0 with ⟨%f0, %hf0, H0⟩; icases H1 with ⟨%f1, %hf1, H1⟩; icases HS0 with ⟨%fs0, %hfs0, HS0⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexact H2
  iexists _; isplitr; swap; · iexact HS0
  ipureintro
  refine (read_last_whole _ _ zero2 _ _ _).trans ?_
  sl_unfold_run_names
  unfold stepAcc
  simp only [View.readAt_eq_ld, harg2.read_unread, harg3.read_unread, harg5.read_unread, View.ld_unit_zero (S := S8192x40) zero2, View.ld_unit_zero (S := S8192x18) zero2, View.ld_unit_zero (S := S1x1) zero2]

set_option maxHeartbeats 1000000 in
/-- A last step that is not a first one: the accumulator gains the tile's sum and is copied into cell (0,0) of the
    output block, whose other cells stay as found. -/
theorem runLast (c : Dev nD) (i : grid0.Coords) (arg2 : Memref sig .tc .vmem S8192x40 .f32) (harg2 : arg2.IsWhole) (arg3 : Memref sig .tc .vmem S8192x18 .i32) (harg3 : arg3.IsWhole) (arg4 : Memref sig .tc .vmem S8x128 .f32) (harg4 : arg4.IsWhole) (arg5 : Memref sig .tc .vmem S1x1 .f32) (harg5 : arg5.IsWhole) (hc0 : ¬firstStep i) (hc1 : lastStep i)
    (x0 : Vec F S8192x40 .f32) (x1 : Vec F S8192x18 .i32) (xo : Vec F S8x128 .f32) (xs : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare (cornerOver (stepAcc x0 x1 xs) xo) ∗ owns (c : Thread nD τ) arg5 fullShare (stepAcc x0 x1 xs)) -∗ K ⟨⟩))
      ⊢ wp frame (wpE (defs₀ (F := F)) Variants.none c none) E (cc0__focal_loss_kernel i arg2 harg2 arg3 harg3 arg4 harg4 arg5 harg5) K := by
  simp only [cc0__focal_loss_kernel_eq_skeleton]; unfold cc0__focal_loss_kernel_skel
  simp only [k0_part1_eq_skeleton]
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  have hacc : ∀ (L : List (View.Piece (Elt F) S1x1 .f32)) (a : Vec F S1x1 .f32),
      a = View.readAt (Elt F) arg5.view (Rect.unit (s := S1x1) ![0, 0] S1x1.size inb_S1x1_S1x1_0_0).toLoadRect (harg5.unread xs) →
      k0_pay1 (k0_pay5 (View.readAt (Elt F) arg2.view (Rect.unit (s := S8192x40) ![0, 0] S8192x40.size inb_S8192x40_S8192x40_0_0).toLoadRect (harg2.unread x0)))
        (k0_pay6 (View.readAt (Elt F) arg3.view (Rect.unit (s := S8192x18) ![0, 0] S8192x18.size inb_S8192x18_S8192x18_0_0).toLoadRect (harg3.unread x1)))
        (k0_pay7 (View.readAt (Elt F) arg2.view (Rect.unit (s := S8192x40) ![0, 0] S8192x40.size inb_S8192x40_S8192x40_0_0).toLoadRect (harg2.unread x0))
          (View.readAt (Elt F) arg3.view (Rect.unit (s := S8192x18) ![0, 0] S8192x18.size inb_S8192x18_S8192x18_0_0).toLoadRect (harg3.unread x1))) a
        = stepAcc x0 x1 xs := by
    intro L a ha
    subst ha
    unfold stepAcc
    simp only [View.readAt_eq_ld, harg2.read_unread, harg3.read_unread, harg5.read_unread, View.ld_unit_zero (S := S8192x40) zero2, View.ld_unit_zero (S := S8192x18) zero2, View.ld_unit_zero (S := S1x1) zero2]
  isplitl [H2]
  · iexists _; isplitr; swap; · iexact H2
    ipureintro
    refine (read_corner_store _ _ _).trans ?_
    rw [harg4.read_unread]
    refine congrArg (fun a => cornerOver a xo) ?_
    sl_unfold_run_names
    rw [View.readCov_unit_zero _ zero2]
    exact hacc [] _ rfl
  iexists _; isplitr; swap; · iexact HS0
  ipureintro
  refine (read_last_whole _ _ zero2 _ _ _).trans ?_
  sl_unfold_run_names
  exact hacc [] _ rfl

end Cert.KernelIdeal.Body

end
-- ==== Proof.KBodyIdeal.lean ====
/-
  The frame run of the kernel's pipeline with every buffer's contents named, at any float instance.

  The 128 grid steps run in order; step t belongs to half t / 64 and is the first of its half when t % 64 = 0, the last
  when t % 64 = 63. Between steps the accumulator scratch holds `accAt t`: the tile sums of the half so far, added one
  by one onto zero. The output window's block is the half's [8,128] block: zeros after the half's first step,
  untouched through the middle steps, and at the half's last step zeros except cell (0,0), which holds the half's total
  — that is what is written back to the [16,128] result array.
-/
import proofs.«135765_j40261023433195_2_alg».proof.Proof.KRunsIdeal

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The grid's schedule, decided once -/

theorem first_iff : ∀ t : Fin cfg0.N, firstStep (grid0.coords t) ↔ t.val % 64 = 0 :=
  (by decide +kernel : ∀ t : Fin grid0.N, firstStep (grid0.coords t) ↔ t.val % 64 = 0)
theorem last_iff : ∀ t : Fin cfg0.N, lastStep (grid0.coords t) ↔ t.val % 64 = 63 :=
  (by decide +kernel : ∀ t : Fin grid0.N, lastStep (grid0.coords t) ↔ t.val % 64 = 63)
/-- The input windows are stored into by no step (they are only read), so they are never idle. -/
theorem live0 : ∀ t : Fin cfg0.N, cfg0.idle 0 (grid0.coords t) = false := by decide +kernel
theorem live1 : ∀ t : Fin cfg0.N, cfg0.idle 1 (grid0.coords t) = false := by decide +kernel
/-- The output window is stored into at the first and the last step of a half, and at no other. -/
theorem live2_first : ∀ t : Fin cfg0.N, t.val % 64 = 0 → cfg0.idle 2 (grid0.coords t) = false := by decide +kernel
theorem live2_last : ∀ t : Fin cfg0.N, t.val % 64 = 63 → cfg0.idle 2 (grid0.coords t) = false := by decide +kernel
theorem idle2_mid : ∀ t : Fin cfg0.N, ¬t.val % 64 = 0 → ¬t.val % 64 = 63 → cfg0.idle 2 (grid0.coords t) = true := by decide +kernel
/-- An output window is never fetched. -/
theorem fetch2 : ∀ t : Fin cfg0.N, (cfg0.win 2).fetch t = false :=
  (by decide +kernel : ∀ t : Fin grid0.N, win0_2.fetch t = false)

/-- The staging memrefs the pipeline hands the body at step `t` are whole buffers. -/
abbrev hs0 (t : Fin cfg0.N) : (st0_0 t).IsWhole := hstage0_0 ((cfg0.slots t 0).cast nbuf0_0)
abbrev hs1 (t : Fin cfg0.N) : (st0_1 t).IsWhole := hstage0_1 ((cfg0.slots t 1).cast nbuf0_1)
abbrev hs2 (t : Fin cfg0.N) : (st0_2 t).IsWhole := hstage0_2 ((cfg0.slots t 2).cast nbuf0_2)
/-- The accumulator scratch, a whole buffer of the kernel's own. -/
abbrev scr : Memref sig .tc .vmem S1x1 .f32 := Memref.whole cc0_scratch0

/-- What the launch lends the body besides the windows: the accumulator scratch at some contents and the generator
    register at some state. -/
theorem PhiA_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-! ## What the accumulator and the output block hold after each step -/

/-- The accumulator after step `n`: the step's tile sum added to zero at the first step of a half, to what the step
    before left otherwise. -/
def accAt (c : Dev nD) : (n : ℕ) → n < cfg0.N → Vec F S1x1 .f32
  | 0, hn => stepAcc (iblk m c 0 ⟨0, hn⟩) (iblk m c 1 ⟨0, hn⟩) (k0_pay2 (F := F))
  | n + 1, hn => stepAcc (iblk m c 0 ⟨n + 1, hn⟩) (iblk m c 1 ⟨n + 1, hn⟩)
      (if (n + 1) % 64 = 0 then (k0_pay2 (F := F)) else accAt c n (Nat.lt_of_succ_lt hn))

theorem accAt_first (c : Dev nD) (t : Fin cfg0.N) (h0 : t.val % 64 = 0) :
    accAt m c t.val t.isLt = stepAcc (iblk m c 0 t) (iblk m c 1 t) (k0_pay2 (F := F)) := by
  obtain ⟨n, hn⟩ := t
  cases n with
  | zero => rfl
  | succ n => exact congrArg (stepAcc _ _) (if_pos h0)

theorem accAt_next (c : Dev nD) (t : Fin cfg0.N) (h0 : ¬t.val % 64 = 0) :
    accAt m c t.val t.isLt = stepAcc (iblk m c 0 t) (iblk m c 1 t)
      (accAt m c (t.val - 1) (Nat.lt_of_le_of_lt (Nat.sub_le _ _) t.isLt)) := by
  obtain ⟨n, hn⟩ := t
  cases n with
  | zero => exact absurd (Nat.zero_mod _) h0
  | succ n => exact congrArg (stepAcc _ _) (if_neg h0)

/-- The output block after step `t` (where the step stores into it): zeros, with the half's total in cell (0,0) at
    the half's last step. -/
def outAt (c : Dev nD) (t : Fin cfg0.N) : Vec F S8x128 .f32 :=
  if t.val % 64 = 63 then cornerOver (accAt m c t.val t.isLt) (k0_pay3 (F := F)) else (k0_pay3 (F := F))

/-- The invariant between steps: before the first, what the launch lends; afterwards the accumulator at `accAt` of
    the step before, and the generator register. -/
def PhiS (c : Dev nD) : (n : ℕ) → n ≤ cfg0.N → sProp 𝕄
  | 0, _ => Pipeline.ΦA spec0 c
  | n + 1, hn => iprop(iprop(owns (c : Thread nD τ) scr fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scr fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scr fullShare (accAt m c (n - 1) (by omega))) ∗ (∃ r, prngReg c r)) := by
  cases n with
  | zero => exact absurd rfl hz
  | succ n => rfl

/-! ## The pipeline's proof data -/

/-- The arrays as the region finds them; after the body at step `t` each input's buffer at its block and the output's
    at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outAt m c t := by dsimp only [dats]

/-- Each input's current staging buffer holds its block at every step. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- What a step that stored into the output block leaves there for the next step (the block is whole: nothing of the
    buffer's earlier contents shows). -/
theorem left_live (c : Dev nD) (t : Fin cfg0.N) (d) (h : cfg0.idle 2 (cfg0.grid.coords t) = false) :
    (dats m 0 c).left 2 t d = (dats m 0 c).after 2 t := by
  unfold Dat.left; rw [h]; unfold Dat.kept
  rw [Pipeline.fill_of_clip_none 2 _ (fun _ => rfl) d ((dats m 0 c).after 2 t), Window.fill_cut]
/-- What a step that did not store into it leaves: what it found. -/
theorem left_idle (c : Dev nD) (t : Fin cfg0.N) (d) (h : cfg0.idle 2 (cfg0.grid.coords t) = true) :
    (dats m 0 c).left 2 t d = (dats m 0 c).before 2 t d := by
  unfold Dat.left; rw [h]

/-- At every step but the first of a half the output block's buffer holds zeros: the half's first step stored them,
    no step in between stores into it, and it is written back only after the half's last step. -/
theorem before2 (c : Dev nD) (t : Fin cfg0.N) (h0 : ¬t.val % 64 = 0) (d) :
    (dats m 0 c).before 2 t d = (k0_pay3 (F := F)) := by
  obtain ⟨n, hn⟩ := t
  induction n with
  | zero => exact absurd (Nat.zero_mod _) h0
  | succ n ih =>
    have hN : n + 1 < 128 := lt_of_lt_of_eq hn (show cfg0.N = 128 from N_0)
    have hn' : n < cfg0.N := Nat.lt_of_succ_lt hn
    have h0' : ¬(n + 1) % 64 = 0 := h0
    have hfl : ¬(cfg0.win 2).flush ⟨n, hn'⟩ = true := fun h => by
      have := (flush0_2 _).mp h
      dsimp only at this
      omega
    refine ((dats m 0 c).before_of_pos 2 ⟨n + 1, hn⟩ (Nat.succ_ne_zero n) (fetch2 _) d).trans ?_
    refine (if_neg hfl).trans ?_
    by_cases hz : n % 64 = 0
    · refine (left_live m c ⟨n, hn'⟩ d (live2_first ⟨n, hn'⟩ hz)).trans ?_
      rw [after2]; unfold outAt
      exact if_neg (by show ¬n % 64 = 63; omega)
    · refine (left_idle m c ⟨n, hn'⟩ d (idle2_mid ⟨n, hn'⟩ hz (by show ¬n % 64 = 63; omega))).trans ?_
      exact ih hn' hz

/-- What the body obligation asks of each window's buffer after the body. -/
theorem leaves0 (c : Dev nD) (t : Fin cfg0.N) :
    (dats m 0 c).leavesExact 0 t = owns (c : Thread nD τ) (st0_0 t) fullShare (iblk m c 0 t) := by
  unfold Dat.leavesExact; rw [live0 t, after0]
theorem leaves1 (c : Dev nD) (t : Fin cfg0.N) :
    (dats m 0 c).leavesExact 1 t = owns (c : Thread nD τ) (st0_1 t) fullShare (iblk m c 1 t) := by
  unfold Dat.leavesExact; rw [live1 t, after1]
theorem leaves2_first (c : Dev nD) (t : Fin cfg0.N) (h0 : t.val % 64 = 0) :
    (dats m 0 c).leavesExact 2 t = owns (c : Thread nD τ) (st0_2 t) fullShare (k0_pay3 (F := F)) := by
  unfold Dat.leavesExact; rw [live2_first t h0, after2]; unfold outAt; rw [if_neg (by omega)]
theorem leaves2_last (c : Dev nD) (t : Fin cfg0.N) (h1 : t.val % 64 = 63) :
    (dats m 0 c).leavesExact 2 t
      = owns (c : Thread nD τ) (st0_2 t) fullShare (cornerOver (accAt m c t.val t.isLt) (k0_pay3 (F := F))) := by
  unfold Dat.leavesExact; rw [live2_last t h1, after2]; unfold outAt; rw [if_pos h1]
theorem leaves2_mid (c : Dev nD) (t : Fin cfg0.N) (h0 : ¬t.val % 64 = 0) (h1 : ¬t.val % 64 = 63) :
    (dats m 0 c).leavesExact 2 t
      = iprop(∃ d, owns (c : Thread nD τ) (st0_2 t) fullShare ((dats m 0 c).before 2 t d)) :=
  (dats m 0 c).leavesExact_idle 2 t (idle2_mid t h0 h1)
    (Bool.eq_false_iff.mpr fun h => h1 ((flush0_2 t).mp h))

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4000000 in
/-- The body at any step: the inputs' buffers hold their blocks; the step is a first, a middle or a last one of its
    half, and the matching run applies, the accumulator handed over at what the step before left (at anything before
    the very first step) and taken back at this step's value. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1]
  have hN : t.val < 128 := lt_of_lt_of_eq t.isLt (show cfg0.N = 128 from N_0)
  by_cases h0 : t.val % 64 = 0
  · have h1 : ¬t.val % 64 = 63 := by omega
    rw [leaves2_first m c t h0, accAt_first m c t h0]
    by_cases hz : t.val = 0
    · rw [PhiS_castSucc m c t, PhiS_zero m c _ _ hz, PhiA_eq]
      iintro ⟨⟨HS0, Hg⟩, Ho, ⟨%d0, H0⟩, ⟨%d1, H1⟩, ⟨%d2, H2⟩⟩
      iapply (runFirst c (grid0.coords t) _ (hs0 t) _ (hs1 t) _ (hs2 t) _ (Memref.isWhole_whole _) ((first_iff t).mpr h0) (fun h => h1 ((last_iff t).mp h)) (iblk m c 0 t) (iblk m c 1 t) Set.univ _)
      isplitl [H0]; · iexact H0
      isplitl [H1]; · iexact H1
      isplitl [H2]; · iexists _; iexact H2
      isplitl [HS0]; · iexact HS0
      iintro ⟨H0, H1, H2, HS0⟩
      isplitl [HS0 Hg]
      · isplitl [HS0]; · iexact HS0
        iexact Hg
      isplitl [Ho]; · iexact Ho
      isplitl [H0]; · iexact H0
      isplitl [H1]; · iexact H1
      iexact H2
    · rw [PhiS_castSucc m c t, PhiS_pos m c _ _ hz]
      iintro ⟨⟨HS0, Hg⟩, Ho, ⟨%d0, H0⟩, ⟨%d1, H1⟩, ⟨%d2, H2⟩⟩
      iapply (runFirst c (grid0.coords t) _ (hs0 t) _ (hs1 t) _ (hs2 t) _ (Memref.isWhole_whole _) ((first_iff t).mpr h0) (fun h => h1 ((last_iff t).mp h)) (iblk m c 0 t) (iblk m c 1 t) Set.univ _)
      isplitl [H0]; · iexact H0
      isplitl [H1]; · iexact H1
      isplitl [H2]; · iexists _; iexact H2
      isplitl [HS0]; · iexists _; iexact HS0
      iintro ⟨H0, H1, H2, HS0⟩
      isplitl [HS0 Hg]
      · isplitl [HS0]; · iexact HS0
        iexact Hg
      isplitl [Ho]; · iexact Ho
      isplitl [H0]; · iexact H0
      isplitl [H1]; · iexact H1
      iexact H2
  · have hz : t.val ≠ 0 := fun h => h0 (by rw [h])
    rw [PhiS_castSucc m c t, PhiS_pos m c _ _ hz, accAt_next m c t h0]
    by_cases h1 : t.val % 64 = 63
    · rw [leaves2_last m c t h1, accAt_next m c t h0]
      simp only [before2 m c t h0]
      iintro ⟨⟨HS0, Hg⟩, Ho, ⟨%d0, H0⟩, ⟨%d1, H1⟩, ⟨%d2, H2⟩⟩
      iapply (runLast c (grid0.coords t) _ (hs0 t) _ (hs1 t) _ (hs2 t) _ (Memref.isWhole_whole _) (fun h => h0 ((first_iff t).mp h)) ((last_iff t).mpr h1) (iblk m c 0 t) (iblk m c 1 t) (k0_pay3 (F := F)) _ Set.univ _)
      isplitl [H0]; · iexact H0
      isplitl [H1]; · iexact H1
      isplitl [H2]; · iexact H2
      isplitl [HS0]; · iexact HS0
      iintro ⟨H0, H1, H2, HS0⟩
      isplitl [HS0 Hg]
      · isplitl [HS0]; · iexact HS0
        iexact Hg
      isplitl [Ho]; · iexact Ho
      isplitl [H0]; · iexact H0
      isplitl [H1]; · iexact H1
      iexact H2
    · rw [leaves2_mid m c t h0 h1]
      iintro ⟨⟨HS0, Hg⟩, Ho, ⟨%d0, H0⟩, ⟨%d1, H1⟩, ⟨%d2, H2⟩⟩
      iapply (runMid c (grid0.coords t) _ (hs0 t) _ (hs1 t) _ (hs2 t) _ (Memref.isWhole_whole _) (fun h => h0 ((first_iff t).mp h)) (fun h => h1 ((last_iff t).mp h)) (iblk m c 0 t) (iblk m c 1 t) ((dats m 0 c).before 2 t d2) _ Set.univ _)
      isplitl [H0]; · iexact H0
      isplitl [H1]; · iexact H1
      isplitl [H2]; · iexact H2
      isplitl [HS0]; · iexact HS0
      iintro ⟨H0, H1, H2, HS0⟩
      isplitl [HS0 Hg]
      · isplitl [HS0]; · iexact HS0
        iexact Hg
      isplitl [Ho]; · iexact Ho
      isplitl [H0]; · iexact H0
      isplitl [H1]; · iexact H1
      iexists d2; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA_eq]
  iintro ⟨HS0, Hg⟩
  isplitl [HS0]
  · iexists _; iexact HS0
  iexact Hg

/-! ## The run -/

set_option backward.isDefEq.respectTransparency.types false in
/-- Every weakly fair execution of @main terminates, every array of the pipeline ends at what the write-backs of the
    proof data leave, and every other unscoped buffer at what the two host lines after the region compute. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Spec.lean ====
/-
  The mathematics both programs compute, written once over the extended reals.

  One sample is a row of 40 predictions `P` and a row of 18 integer labels `Lr`; attribute `k` reads prediction
  `sel k`. With `t` the label as a number, `pos` the test "label = 1", `lp = max (log p) (-100)` and
  `lq = max (log (1 - p)) (-100)`:
    entropy term   t · lp + (1 - t) · lq           (the kernel stores its negative, `0 - …`)
    focal weight   (0.8 if pos else 0.2) · pt²,  pt = (1 - p if pos else p)   (the reference writes pt ^ 2.0)
  The kernel's sample value is (Σ_k weight) · ((Σ_k negated entropy) · 1/18); the reference's is
  (0 + Σ_k weight) · -((0 + Σ_k entropy) / 18). The kernel adds its sample values tile by tile (8192 rows), carries
  the tile sums through 64 steps per half of the batch, leaves each half's total in one cell of a zero [16,128]
  array, and sums that array; the reference sums the sample values over all rows.
-/
import Idealize.ShloMosaic.PureOps.Ideal
import Idealize.ShloMosaic.Lib.ValueIdx

noncomputable section

namespace Cert.FocalSpec

open Idealize.ShloMosaic Idealize.ShloMosaic.ValueIdx
open scoped BigOperators

/-- The f32 word `b` as an extended real. -/
abbrev w (b : BitVec 32) : EReal := Ideal.ofBits .f32 b

/-- The selected attribute columns. -/
def sel : Fin 18 → Fin 40 := ![4, 8, 9, 11, 13, 14, 15, 16, 17, 18, 20, 22, 23, 26, 29, 30, 31, 36]

/-- A label as a number. -/
abbrev lab (l : BitVec 32) : EReal := ((l.toInt : ℝ) : EReal)
/-- The test "label = 1" as the programs compute it. -/
abbrev pos (l : BitVec 32) : BitVec 1 := IntOp.cmpi .eq l 1#32

/-- The kernel's negated clamped entropy term of prediction `p` under label `l`. -/
def entK (p : EReal) (l : BitVec 32) : EReal :=
  w 0x00000000#32 - (lab l * max (Ideal.log p) (w 0xC2C80000#32)
    + (w 0x3F800000#32 - lab l) * max (Ideal.log1p (w 0x00000000#32 - p)) (w 0xC2C80000#32))
/-- The reference's clamped entropy term. -/
def entR (p : EReal) (l : BitVec 32) : EReal :=
  lab l * max (Ideal.log p) (w 0xC2C80000#32) + (w 0x3F800000#32 - lab l) * max (Ideal.log1p (-p)) (w 0xC2C80000#32)
/-- The kernel's focal weight: the class factor times the square of the miss probability. -/
def focK (p : EReal) (l : BitVec 32) : EReal :=
  Scalar.select (pos l) (w 0x3F4CCCCD#32) (w 0x3E4CCCCD#32)
    * (Scalar.select (pos l) (w 0x3F800000#32 - p) p * Scalar.select (pos l) (w 0x3F800000#32 - p) p)
/-- The reference's focal weight: the same with the square written as a power. -/
def focR (p : EReal) (l : BitVec 32) : EReal :=
  Scalar.select (pos l) (w 0x3F4CCCCD#32) (w 0x3E4CCCCD#32)
    * Ideal.pow (Scalar.select (pos l) (w 0x3F800000#32 - p) p) (w 0x40000000#32)

/-- The kernel's value of one sample. -/
def sampleK (P : Fin 40 → EReal) (Lr : Fin 18 → BitVec 32) : EReal :=
  (∑ k : Fin 18, focK (P (sel k)) (Lr k)) * ((∑ k : Fin 18, entK (P (sel k)) (Lr k)) * ((1 / 18 : ℝ) : EReal))
/-- The reference's value of one sample. -/
def sampleR (P : Fin 40 → EReal) (Lr : Fin 18 → BitVec 32) : EReal :=
  (w 0x00000000#32 + ∑ k : Fin 18, focR (P (sel k)) (Lr k))
    * -(Ideal.div (w 0x00000000#32 + ∑ k : Fin 18, entR (P (sel k)) (Lr k)) (w 0x41900000#32))

/-- Row `n` of the prediction array (zero past the end, never read there). -/
def rowP (x : (⟨2, ![1048576, 40]⟩ : Shape).Idx → EReal) (n : ℕ) : Fin 40 → EReal :=
  fun j => if h : n < 1048576 then x (ix2 ⟨n, h⟩ j) else 0
/-- Row `n` of the label array. -/
def rowL (y : (⟨2, ![1048576, 18]⟩ : Shape).Idx → BitVec 32) (n : ℕ) : Fin 18 → BitVec 32 :=
  fun k => if h : n < 1048576 then y (ix2 ⟨n, h⟩ k) else 0#32

/-! ## How the kernel adds the sample values `f n` up -/

/-- The sum over tile `t`: rows `8192 t … 8192 t + 8191`. -/
def tileSum (f : ℕ → EReal) (t : ℕ) : EReal := ∑ j : Fin 8192, f (t * 8192 + j.val)
/-- The running total after grid step `t`: restarted from zero at the first of every 64 steps. -/
def runTotal (f : ℕ → EReal) : ℕ → EReal
  | 0 => w 0x00000000#32 + tileSum f 0
  | t + 1 => (if (t + 1) % 64 = 0 then w 0x00000000#32 else runTotal f t) + tileSum f (t + 1)
/-- The [16,128] array the kernel leaves: half `h`'s total in cell (8h, 0), zero elsewhere. -/
def outCell (f : ℕ → EReal) (r : Fin 16) (c : Fin 128) : EReal :=
  if r.val % 8 = 0 ∧ c.val = 0 then runTotal f (64 * (r.val / 8) + 63) else w 0x00000000#32
/-- The kernel's result: the sum of that array from zero. -/
def totalK (f : ℕ → EReal) : EReal := w 0x00000000#32 + ∑ r : Fin 16, ∑ c : Fin 128, outCell f r c
/-- The reference's result: the sum of all sample values from zero. -/
def totalR (f : ℕ → EReal) : EReal := w 0x00000000#32 + ∑ n : Fin 1048576, f n.val

end Cert.FocalSpec

end
-- ==== Proof.LibConsts.lean ====
/-
  The float literals both programs spell, as the extended reals their bit patterns denote, and small facts about the
  extended reals used to carry real-valued arrays through sums, products, quotients and square roots.
-/
import Idealize.ShloMosaic.PureOps.Ideal
import Idealize.ShloMosaic.PureOps.Ideal.Laws

noncomputable section

namespace Cert.Consts

open Idealize.ShloMosaic

theorem ofBits_zero : Ideal.ofBits .f32 0x00000000#32 = 0 := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
/-- 65536.0 = 32 · 2048, the number of (graph, node) rows. -/
theorem ofBits_rows : Ideal.ofBits .f32 0x47800000#32 = ((65536 : ℝ) : EReal) := by
  simp [Ideal.ofBits, Ideal.ieee, -EReal.coe_mul]; norm_num
/-- The variance's epsilon is a positive real. -/
theorem ofBits_eps : ∃ ε : ℝ, 0 < ε ∧ Ideal.ofBits .f32 0x3727C5AC#32 = (ε : EReal) := by
  refine ⟨_, ?_, by simp [Ideal.ofBits, Ideal.ieee, -EReal.coe_mul]; rfl⟩
  norm_num

/-- The coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The reciprocal square root of a positive real is the real 1 / √r. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- Division by a nonzero real is real division. -/
theorem div_real (x : ℝ) {y : ℝ} (h : y ≠ 0) : Ideal.div (x : EReal) (y : EReal) = ((x / y : ℝ) : EReal) := by
  rw [Ideal.div_coe h, ← EReal.coe_mul]; congr 1; field_simp

end Cert.Consts

end
-- ==== Proof.SpecLaws.lean ====
/-
  The two algebraic laws that join the kernel's arithmetic to the reference's.

  sample_eq: on real predictions the two spellings of one sample's value are one real number. Every clamped
  logarithm max (log x) (-100) of a real x is a real, so each entropy term is a real e (the kernel holds -e), and
  the sum of the negated terms times 1/18 is the negated quotient by 18; the focal weights agree term by term because
  the square q · q of a real is its power q ^ 2.

  total_eq: the kernel's order of summation is a reordering of the reference's. Only the cells (0,0) and (8,0) of the
  [16,128] array are nonzero and hold the two halves' running totals; a running total over 64 steps is the sum of its 64
  tile sums; and the 128 tile sums of 8192 rows each make up the sum over all 128 · 8192 rows.
-/
import proofs.«135765_j40261023433195_2_alg».proof.Proof.Spec
import proofs.«135765_j40261023433195_2_alg».proof.Proof.LibConsts

noncomputable section

namespace Cert.FocalSpec

open Idealize.ShloMosaic
open scoped BigOperators

/-! ## The literals -/

theorem w_zero : w 0x00000000#32 = 0 := Cert.Consts.ofBits_zero
theorem w_one : w 0x3F800000#32 = ((1 : ℝ) : EReal) := Cert.Consts.ofBits_one
theorem w_two : w 0x40000000#32 = ((2 : ℝ) : EReal) := Cert.Consts.ofBits_two
theorem w_neg_hundred : w 0xC2C80000#32 = ((-100 : ℝ) : EReal) := by
  simp [w, Ideal.ofBits, Ideal.ieee, -EReal.coe_mul]; norm_num
theorem w_eighteen : w 0x41900000#32 = ((18 : ℝ) : EReal) := by
  simp [w, Ideal.ofBits, Ideal.ieee, -EReal.coe_mul]; norm_num

/-! ## One sample -/

/-- The clamped logarithm of a real is a real. -/
theorem clampLog_real (r c : ℝ) : ∃ a : ℝ, max (Ideal.log (r : EReal)) (c : EReal) = (a : EReal) := by
  rw [Ideal.log_coe]
  split_ifs
  · exact ⟨c, max_eq_right bot_le⟩
  · exact ⟨max (Real.log r) c, (EReal.coe_strictMono.monotone.map_max).symm⟩

/-- On a real prediction the entropy term is a real e; the kernel holds -e. -/
theorem ent_real (r : ℝ) (l : BitVec 32) :
    ∃ e : ℝ, entK (r : EReal) l = ((-e : ℝ) : EReal) ∧ entR (r : EReal) l = ((e : ℝ) : EReal) := by
  obtain ⟨a, ha⟩ := clampLog_real r (-100)
  obtain ⟨b, hb⟩ := clampLog_real (1 + -r) (-100)
  have h2 : Ideal.log1p (-(r : EReal)) = Ideal.log ((1 + -r : ℝ) : EReal) := by
    rw [Ideal.log1p, EReal.coe_add, EReal.coe_neg, EReal.coe_one]
  have h1 : Ideal.log1p (w 0x00000000#32 - (r : EReal)) = Ideal.log ((1 + -r : ℝ) : EReal) := by
    rw [w_zero, zero_sub, h2]
  refine ⟨(l.toInt : ℝ) * a + (1 - (l.toInt : ℝ)) * b, ?_, ?_⟩
  · rw [entK, h1, w_neg_hundred, ha, hb, w_zero, w_one, zero_sub]
    rw [← EReal.coe_sub, ← EReal.coe_mul, ← EReal.coe_mul, ← EReal.coe_add, ← EReal.coe_neg]
  · rw [entR, h2, w_neg_hundred, ha, hb, w_one]
    rw [← EReal.coe_sub, ← EReal.coe_mul, ← EReal.coe_mul, ← EReal.coe_add]

/-- On a real prediction the two focal weights agree: the square of a real is its second power. -/
theorem foc_real (r : ℝ) (l : BitVec 32) : focK (r : EReal) l = focR (r : EReal) l := by
  have hq : ∃ q : ℝ, Scalar.select (pos l) (w 0x3F800000#32 - (r : EReal)) (r : EReal) = (q : EReal) := by
    rw [w_one, ← EReal.coe_sub]
    unfold Scalar.select
    split_ifs
    exacts [⟨_, rfl⟩, ⟨_, rfl⟩]
  obtain ⟨q, hq⟩ := hq
  rw [focK, focR, hq, w_two, Ideal.pow_coe_coe]
  congr 1
  rw [← EReal.coe_mul]
  congr 1
  show q * q = q ^ (2 : ℝ)
  rw [Real.rpow_two]; ring

theorem sample_eq (P : Fin 40 → EReal) (Lr : Fin 18 → BitVec 32) (hP : ∀ j, ∃ r : ℝ, P j = (r : EReal)) :
    sampleK P Lr = sampleR P Lr := by
  choose r hr using hP
  choose e heK heR using fun k : Fin 18 => ent_real (r (sel k)) (Lr k)
  have hF : ∑ k : Fin 18, focK (P (sel k)) (Lr k) = ∑ k : Fin 18, focR (P (sel k)) (Lr k) :=
    Finset.sum_congr rfl fun k _ => by rw [hr]; exact foc_real _ _
  have hK : ∑ k : Fin 18, entK (P (sel k)) (Lr k) = ((∑ k : Fin 18, -e k : ℝ) : EReal) := by
    rw [Consts.coe_sum]; exact Finset.sum_congr rfl fun k _ => by rw [hr]; exact heK k
  have hR : ∑ k : Fin 18, entR (P (sel k)) (Lr k) = ((∑ k : Fin 18, e k : ℝ) : EReal) := by
    rw [Consts.coe_sum]; exact Finset.sum_congr rfl fun k _ => by rw [hr]; exact heR k
  rw [sampleK, sampleR, hF, hK, hR, w_zero, zero_add, zero_add, w_eighteen,
    Consts.div_real _ (by norm_num : (18 : ℝ) ≠ 0)]
  congr 1
  rw [← EReal.coe_mul, ← EReal.coe_neg]
  congr 1
  rw [Finset.sum_neg_distrib]; ring

/-! ## The whole batch -/

/-- A sum over a · b consecutive indices, cut into a runs of b. -/
theorem sum_range_mul {M : Type*} [AddCommMonoid M] (g : ℕ → M) (a b : ℕ) :
    ∑ n ∈ Finset.range (a * b), g n = ∑ i ∈ Finset.range a, ∑ j ∈ Finset.range b, g (i * b + j) := by
  induction a with
  | zero => simp
  | succ a ih => rw [Nat.succ_mul, Finset.sum_range_add, ih, Finset.sum_range_succ]

theorem tileSum_range (f : ℕ → EReal) (t : ℕ) :
    tileSum f t = ∑ j ∈ Finset.range 8192, f (t * 8192 + j) :=
  Fin.sum_univ_eq_sum_range (fun j => f (t * 8192 + j)) 8192

/-- At the first of every 64 steps the running total is that step's tile sum. -/
theorem runTotal_restart (f : ℕ → EReal) (t : ℕ) (ht : t % 64 = 0) : runTotal f t = tileSum f t := by
  cases t with
  | zero => rw [runTotal, w_zero, zero_add]
  | succ t => rw [runTotal, if_pos ht, w_zero, zero_add]

theorem runTotal_step (f : ℕ → EReal) (t : ℕ) (ht : (t + 1) % 64 ≠ 0) :
    runTotal f (t + 1) = runTotal f t + tileSum f (t + 1) := by
  rw [runTotal, if_neg ht]

/-- The running total s steps into half h is the sum of that half's first s + 1 tile sums. -/
theorem runTotal_eq (f : ℕ → EReal) (h s : ℕ) (hs : s < 64) :
    runTotal f (64 * h + s) = ∑ i ∈ Finset.range (s + 1), tileSum f (64 * h + i) := by
  induction s with
  | zero => rw [runTotal_restart f _ (by omega)]; simp
  | succ s ih =>
    rw [← Nat.add_assoc, runTotal_step f _ (by omega), ih (by omega), Finset.sum_range_succ _ (s + 1),
      Nat.add_assoc]

theorem total_eq (f : ℕ → EReal) : totalK f = totalR f := by
  have hin : ∀ r : Fin 16, ∑ c : Fin 128, outCell f r c
      = if r.val % 8 = 0 then runTotal f (64 * (r.val / 8) + 63) else 0 := by
    intro r
    by_cases hr : r.val % 8 = 0
    · rw [if_pos hr, Finset.sum_eq_single (0 : Fin 128)]
      · simp [outCell, hr]
      · intro c _ hc
        have hc' : c.val ≠ 0 := fun h => hc (Fin.ext h)
        simp [outCell, hc', w_zero]
      · simp
    · rw [if_neg hr]
      exact Finset.sum_eq_zero fun c _ => by simp [outCell, hr, w_zero]
  have hcells : ∑ r : Fin 16, ∑ c : Fin 128, outCell f r c = runTotal f 63 + runTotal f 127 := by
    simp only [hin]
    rw [Fintype.sum_eq_add (0 : Fin 16) 8 (by decide)]
    · rfl
    · rintro r ⟨h0, h8⟩
      have hlt := r.isLt
      have hne : r.val % 8 ≠ 0 := by
        intro h
        rcases (by omega : r.val = 0 ∨ r.val = 8) with h' | h'
        · exact h0 (Fin.ext h')
        · exact h8 (Fin.ext h')
      rw [if_neg hne]
  have h0 := runTotal_eq f 0 63 (by norm_num)
  have h1 := runTotal_eq f 1 63 (by norm_num)
  have hall : ∑ n : Fin 1048576, f n.val = ∑ n ∈ Finset.range (128 * 8192), f n :=
    Fin.sum_univ_eq_sum_range (fun n => f n) 1048576
  rw [totalK, totalR, hcells, hall, sum_range_mul, show (128 : ℕ) = 64 + 64 from rfl, Finset.sum_range_add]
  simp only [← tileSum_range]
  rw [show (63 : ℕ) = 64 * 0 + 63 from rfl, show (127 : ℕ) = 64 * 1 + 63 from rfl, h0, h1]
  simp

end Cert.FocalSpec

end
-- ==== Proof.LibRows.lean ====
/-
  Rows of a matrix and their flat numbering, read at an index.

  A reshape keeps every element's row-major position. So a length-(a*b) array viewed as [a, b] holds at (p, k) the
  array's entry p*b + k; an [a, b, c] array viewed as [a*b, c] holds at (p*b + k, d) the array's entry (p, k, d); a
  column [a, 1] viewed as [a] holds at i the column's entry (i, 0). And, at the extended reals, the sum of an [a, b]
  vector along its second axis (a lane reduction into [a], from the additive neutral word) is, at row r, the plain
  sum over k of the entries (r, k).
-/
import Idealize.ShloMosaic.Lib.Pipeline.Value
import Idealize.ShloMosaic.Lib.ValueIdx
import Idealize.ShloMosaic.PureOps.Ideal.Laws

noncomputable section

namespace Cert.LibRows

open Idealize.ShloMosaic Idealize.ShloMosaic.ValueIdx

variable {α : Type}

/-- A length-n array cast to [a, b] reads, at (p, k), the operand at the entry numbered p*b + k. -/
theorem shapeCast_n_ab_apply {n a b : ℕ} (x : (⟨1, ![n]⟩ : Shape).Idx → α) (h : (⟨1, ![n]⟩ : Shape).ShapeCasts ⟨2, ![a, b]⟩)
    (p : Fin a) (k : Fin b) (r : Fin n) (hr : r.val = p.val * b + k.val) :
    shapeCast ⟨2, ![a, b]⟩ x h (ix2 p k) = x (ix1 r) :=
  shapeCast_apply x h _ _ (by
    rw [Shape.rowMajor_val_two, Shape.rowMajor_val_one]
    exact hr)

/-- An [a, b, c] array cast to [n, c] reads, at (r, d) with r = p*b + k, the operand at (p, k, d). -/
theorem shapeCast_abc_nc_apply {n a b c : ℕ} (x : (⟨3, ![a, b, c]⟩ : Shape).Idx → α)
    (h : (⟨3, ![a, b, c]⟩ : Shape).ShapeCasts ⟨2, ![n, c]⟩)
    (p : Fin a) (k : Fin b) (d : Fin c) (r : Fin n) (hr : r.val = p.val * b + k.val) :
    shapeCast ⟨2, ![n, c]⟩ x h (ix2 r d) = x (ix3 p k d) :=
  shapeCast_apply x h _ _ (by
    rw [Shape.rowMajor_val_two, Shape.rowMajor_val_three]
    show (p.val * b + k.val) * c + d.val = r.val * c + d.val
    rw [hr])

/-- A column [a, 1] cast to [a] reads, at i, the column's entry (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- At the extended reals the sum of an [a, b] f32 vector along axis 1, from the additive neutral word, is at row r the
    sum over k of the entries (r, k). -/
theorem rowSum_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ v acc h hφ hacc (ix1 r) = ∑ k : Fin b, v (ix2 r k) := by
  refine (Ideal.multiReduction_add_single v acc h hφ hacc (ix1 r)).trans ?_
  refine Finset.sum_congr rfl fun k _ => congrArg v ?_
  funext ax
  refine Fin.ext ?_
  match ax with
  | ⟨0, _⟩ => rfl
  | ⟨1, _⟩ => rfl

end Cert.LibRows

end
-- ==== Proof.LibRowReduce.lean ====
/-
  Rows of a matrix reduced along their entries, and a matrix read through its transpose.

  Over the extended reals a host sum of an [a, b] array along its second axis is, at row r, the initial value plus
  the plain sum over k of the entries (r, k).  A maximum along the second axis, whether taken by a lane reduction or
  by the host, is at row r the fold of max from the initial value over the entries (r, k), in any order.  The word
  of minus infinity is the least extended real, so taking a maximum with it changes nothing.  The transpose of a
  [b, a] matrix holds at (k, j) the matrix's entry (j, k).
-/
import Idealize.ShloMosaic.Lib.Pipeline.Value
import Idealize.ShloMosaic.Lib.ValueIdx
import Idealize.ShloMosaic.PureOps.Ideal.Laws

noncomputable section

open scoped BigOperators

namespace Cert.LibRowReduce

open Idealize.ShloMosaic Idealize.ShloMosaic.ValueIdx

variable {a b : ℕ}

/-- The index of row r with the second coordinate k put back is (r, k). -/
theorem lift_row (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext ax
  refine Fin.ext ?_
  match ax with
  | ⟨0, _⟩ => rfl
  | ⟨1, _⟩ => rfl

/-- The host's sum of an [a, b] array along axis 1, at row r: the initial value plus the sum over k of the
    entries (r, k). -/
theorem hostRowSum_apply {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd (F := Ideal) x init h' hu (ix1 r) = init (Shape.Idx.first hu) + ∑ k : Fin b, x (ix2 r k) := by
  unfold Host.reduceAdd
  rw [Ideal.hostReduceAdd_def, Ideal.hostReduceAdd_single h' h]
  refine congrArg (_ + ·) (Finset.sum_congr rfl fun k _ => congrArg x ?_)
  exact lift_row h r k

/-- A lane maximum of an [a, b] f32 vector along axis 1, at row r: the fold of max from the accumulator's value over the
    entries (r, k). -/
theorem rowMax_apply (v : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ v acc h hφ hacc (ix1 r)
      = (Finset.univ : Finset (Fin b)).fold max (Ideal.ofBits .f32 acc) (fun k => v (ix2 r k)) := by
  refine (Ideal.multiReduction_maximumf_single v acc h hφ hacc (ix1 r)).trans ?_
  refine congrArg (fun f => Finset.fold max (Ideal.ofBits .f32 acc) f (Finset.univ : Finset (Fin b))) ?_
  funext k
  exact congrArg v (lift_row h r k)

/-- The host's maximum of an [a, b] array along axis 1, at row r: the fold of max from the initial value over the
    entries (r, k). -/
theorem hostRowMax_apply {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun k => x (ix2 r k)) := by
  rw [Host.reduce_eq_fold_single (FloatOps.maximumf (F := Ideal) (φ := .f32)) x init h' h hu]
  refine congrArg (fun f => Finset.fold max (init (Shape.Idx.first hu)) f (Finset.univ : Finset (Fin b))) ?_
  funext k
  exact congrArg x (lift_row h r k)

/-- The f32 word of minus infinity is the least extended real: a maximum with it is the other operand. -/
theorem max_negInf_left (y : EReal) : max (Ideal.ofBits .f32 0xFF800000#32) y = y := by
  simp [Ideal.ofBits, Ideal.ieee]

/-- The transpose of a [b, a] matrix reads, at (k, j), the matrix's entry (j, k). -/
theorem transpose_swap_apply {α : Type} (x : (⟨2, ![b, a]⟩ : Shape).Idx → α)
    (h : (⟨2, ![b, a]⟩ : Shape).Transposes [1, 0] ⟨2, ![a, b]⟩) (k : Fin a) (j : Fin b) :
    transpose ⟨2, ![a, b]⟩ [1, 0] x h (ix2 k j) = x (ix2 j k) := by
  refine transpose_apply [1, 0] x h (ix2 k j) (ix2 j k) fun ax => ?_
  match ax with
  | ⟨0, _⟩ => rfl
  | ⟨1, _⟩ => rfl

end Cert.LibRowReduce

end
-- ==== Proof.KValue.lean ====
/-
  The kernel body's arithmetic read at an index, over the extended reals.

  The body transposes the two tiles, picks the eighteen selected prediction columns (eighteen one-row slices of the
  transposed tile, stacked), and computes per (attribute k, row j) the negated clamped entropy term and the focal
  weight; it sums both over the attributes, multiplies the weight sum by the entropy sum times 1/18, sums that over the
  8192 rows of the tile and adds the result to the accumulator. So one step adds to the accumulator the tile's sum of
  the sample values.
-/
import proofs.«135765_j40261023433195_2_alg».proof.Proof.KRunsIdeal
import proofs.«135765_j40261023433195_2_alg».proof.Proof.Spec
import proofs.«135765_j40261023433195_2_alg».proof.Proof.SpecLaws
import proofs.«135765_j40261023433195_2_alg».proof.Proof.LibRows
import proofs.«135765_j40261023433195_2_alg».proof.Proof.LibRowReduce
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

namespace Cert.KernelIdeal.BodyValue

open Cert.KernelIdeal Cert.KernelIdeal.Gen Cert.KernelIdeal.Body Cert.FocalSpec
open Idealize.ShloMosaic Idealize.ShloMosaic.ValueIdx
open scoped BigOperators

/-! ## The layout operations -/

/-- The transposed label tile holds at (k, j) the tile's entry (j, k). -/
theorem pay4_apply (x1 : Vec Ideal S8192x18 .i32) (k : Fin 18) (j : Fin 8192) :
    k0_pay4 (F := Ideal) x1 (ix2 k j) = x1 (ix2 j k) := by
  unfold k0_pay4
  exact Cert.LibRowReduce.transpose_swap_apply x1 _ k j

/-- A one-row slice at row o of a [40, 8192] array holds at (0, j) the array's entry (o, j). -/
theorem slice_row_apply {α : Type} (v : S40x8192.Idx → α) (o : ℕ) (ho : o < 40)
    (h : S40x8192.Slices ![o, 0] S1x8192) (j : Fin 8192) :
    extractStridedSlice S1x8192 ![o, 0] v h (ix2 (0 : Fin 1) j) = v (ix2 (⟨o, ho⟩ : Fin 40) j) :=
  extractStridedSlice_apply _ v h _ _ fun a =>
    match a with
    | ⟨0, _⟩ => by show o = o + 0; omega
    | ⟨1, _⟩ => by show j.val = 0 + j.val; omega

/-- In a list of one-row pieces the extents of the first K pieces along the first axis add up to K. -/
theorem unit_rows_pre {α : Type} : ∀ (xs : List ((s : Shape) × (s.Idx → α))) (_ : ∀ p ∈ xs, p.1 = S1x8192) (K : ℕ)
    (_ : K ≤ xs.length),
    (((xs.take K).map (·.1)).map fun s =>
      if h : s.rank = S18x8192.rank then s.size ((0 : Fin S18x8192.rank).cast h.symm) else 0).sum = K
  | _, _, 0, _ => by simp
  | [], _, K + 1, hK => absurd hK (by simp)
  | p :: xs, hall, K + 1, hK => by
    have hp : p.1 = S1x8192 := hall p (List.mem_cons_self ..)
    have ih := unit_rows_pre xs (fun q hq => hall q (List.mem_cons_of_mem _ hq)) K (by simpa using hK)
    rw [List.take_succ_cons, List.map_cons, List.map_cons, List.sum_cons, ih]
    obtain ⟨s, x⟩ := p
    subst hp
    rw [dif_pos rfl]
    show 1 + K = K + 1
    omega

/-- One-row pieces stacked along the first axis hold at (K, j) piece K's entry (0, j). -/
theorem concat_row_apply {α : Type} (xs : List ((s : Shape) × (s.Idx → α)))
    (h : Shape.Concatenates (xs.map (·.1)) S18x8192 0) (hall : ∀ p ∈ xs, p.1 = S1x8192)
    (K : ℕ) (hK : K < 18) (hk : K < xs.length)
    (x₁ : S1x8192.Idx → α) (hxk : xs[K] = ⟨S1x8192, x₁⟩) (j : Fin 8192) :
    concatenate S18x8192 0 xs h (ix2 (⟨K, hK⟩ : Fin 18) j) = x₁ (ix2 (0 : Fin 1) j) :=
  concatenate_apply_piece 0 xs h _ K hk S1x8192 x₁ hxk rfl K (unit_rows_pre xs hall K (Nat.le_of_lt hk))
    (ix2 (0 : Fin 1) j)
    (fun b hb =>
      match b, hb with
      | ⟨0, _⟩, hb => absurd rfl hb
      | ⟨1, _⟩, _ => rfl)
    (by show K + 0 = K; omega)

/-- Eighteen one-row pieces stacked along the first axis hold at (k, j) piece k's entry (0, j). -/
theorem concat18_apply {α : Type} (p0 p1 p2 p3 p4 p5 p6 p7 p8 p9 p10 p11 p12 p13 p14 p15 p16 p17 : S1x8192.Idx → α)
    (h : Shape.Concatenates (([⟨S1x8192, p0⟩, ⟨S1x8192, p1⟩, ⟨S1x8192, p2⟩, ⟨S1x8192, p3⟩, ⟨S1x8192, p4⟩, ⟨S1x8192, p5⟩, ⟨S1x8192, p6⟩, ⟨S1x8192, p7⟩, ⟨S1x8192, p8⟩, ⟨S1x8192, p9⟩, ⟨S1x8192, p10⟩, ⟨S1x8192, p11⟩, ⟨S1x8192, p12⟩, ⟨S1x8192, p13⟩, ⟨S1x8192, p14⟩, ⟨S1x8192, p15⟩, ⟨S1x8192, p16⟩, ⟨S1x8192, p17⟩] : List ((s : Shape) × (s.Idx → α))).map (·.1)) S18x8192 0)
    (k : Fin 18) (j : Fin 8192) :
    concatenate S18x8192 0 [⟨S1x8192, p0⟩, ⟨S1x8192, p1⟩, ⟨S1x8192, p2⟩, ⟨S1x8192, p3⟩, ⟨S1x8192, p4⟩, ⟨S1x8192, p5⟩, ⟨S1x8192, p6⟩, ⟨S1x8192, p7⟩, ⟨S1x8192, p8⟩, ⟨S1x8192, p9⟩, ⟨S1x8192, p10⟩, ⟨S1x8192, p11⟩, ⟨S1x8192, p12⟩, ⟨S1x8192, p13⟩, ⟨S1x8192, p14⟩, ⟨S1x8192, p15⟩, ⟨S1x8192, p16⟩, ⟨S1x8192, p17⟩] h (ix2 k j)
      = (![p0, p1, p2, p3, p4, p5, p6, p7, p8, p9, p10, p11, p12, p13, p14, p15, p16, p17] : Fin 18 → S1x8192.Idx → α) k (ix2 (0 : Fin 1) j) := by
  have hall : ∀ p ∈ ([⟨S1x8192, p0⟩, ⟨S1x8192, p1⟩, ⟨S1x8192, p2⟩, ⟨S1x8192, p3⟩, ⟨S1x8192, p4⟩, ⟨S1x8192, p5⟩, ⟨S1x8192, p6⟩, ⟨S1x8192, p7⟩, ⟨S1x8192, p8⟩, ⟨S1x8192, p9⟩, ⟨S1x8192, p10⟩, ⟨S1x8192, p11⟩, ⟨S1x8192, p12⟩, ⟨S1x8192, p13⟩, ⟨S1x8192, p14⟩, ⟨S1x8192, p15⟩, ⟨S1x8192, p16⟩, ⟨S1x8192, p17⟩] : List ((s : Shape) × (s.Idx → α))), p.1 = S1x8192 := by
    intro p hp
    simp only [List.mem_cons, List.not_mem_nil, or_false] at hp
    rcases hp with rfl | rfl | rfl | rfl | rfl | rfl | rfl | rfl | rfl | rfl | rfl | rfl | rfl | rfl | rfl | rfl | rfl | rfl <;> rfl
  fin_cases k
  · exact concat_row_apply _ h hall 0 (by omega) (by simp) p0 (by rfl) j
  · exact concat_row_apply _ h hall 1 (by omega) (by simp) p1 (by rfl) j
  · exact concat_row_apply _ h hall 2 (by omega) (by simp) p2 (by rfl) j
  · exact concat_row_apply _ h hall 3 (by omega) (by simp) p3 (by rfl) j
  · exact concat_row_apply _ h hall 4 (by omega) (by simp) p4 (by rfl) j
  · exact concat_row_apply _ h hall 5 (by omega) (by simp) p5 (by rfl) j
  · exact concat_row_apply _ h hall 6 (by omega) (by simp) p6 (by rfl) j
  · exact concat_row_apply _ h hall 7 (by omega) (by simp) p7 (by rfl) j
  · exact concat_row_apply _ h hall 8 (by omega) (by simp) p8 (by rfl) j
  · exact concat_row_apply _ h hall 9 (by omega) (by simp) p9 (by rfl) j
  · exact concat_row_apply _ h hall 10 (by omega) (by simp) p10 (by rfl) j
  · exact concat_row_apply _ h hall 11 (by omega) (by simp) p11 (by rfl) j
  · exact concat_row_apply _ h hall 12 (by omega) (by simp) p12 (by rfl) j
  · exact concat_row_apply _ h hall 13 (by omega) (by simp) p13 (by rfl) j
  · exact concat_row_apply _ h hall 14 (by omega) (by simp) p14 (by rfl) j
  · exact concat_row_apply _ h hall 15 (by omega) (by simp) p15 (by rfl) j
  · exact concat_row_apply _ h hall 16 (by omega) (by simp) p16 (by rfl) j
  · exact concat_row_apply _ h hall 17 (by omega) (by simp) p17 (by rfl) j

/-- The stacked selected columns hold at (k, j) the prediction tile's entry (j, sel k). -/
theorem pay5_apply (x0 : Vec Ideal S8192x40 .f32) (k : Fin 18) (j : Fin 8192) :
    k0_pay5 (F := Ideal) x0 (ix2 k j) = x0 (ix2 j (sel k)) := by
  unfold k0_pay5
  refine (concat18_apply _ _ _ _ _ _ _ _ _ _ _ _ _ _ _ _ _ _ _ k j).trans ?_
  fin_cases k
  · exact (slice_row_apply (transpose S40x8192 [1, 0] x0 Cert.KernelIdeal.Facts₀.transposes_S8192x40_p1_0_S40x8192) 4 (by omega)
      Cert.KernelIdeal.Facts₀.slices_S40x8192_o4_0_S1x8192 j).trans
      (Cert.LibRowReduce.transpose_swap_apply x0 Cert.KernelIdeal.Facts₀.transposes_S8192x40_p1_0_S40x8192 (⟨4, by omega⟩ : Fin 40) j)
  · exact (slice_row_apply (transpose S40x8192 [1, 0] x0 Cert.KernelIdeal.Facts₀.transposes_S8192x40_p1_0_S40x8192) 8 (by omega)
      Cert.KernelIdeal.Facts₀.slices_S40x8192_o8_0_S1x8192 j).trans
      (Cert.LibRowReduce.transpose_swap_apply x0 Cert.KernelIdeal.Facts₀.transposes_S8192x40_p1_0_S40x8192 (⟨8, by omega⟩ : Fin 40) j)
  · exact (slice_row_apply (transpose S40x8192 [1, 0] x0 Cert.KernelIdeal.Facts₀.transposes_S8192x40_p1_0_S40x8192) 9 (by omega)
      Cert.KernelIdeal.Facts₀.slices_S40x8192_o9_0_S1x8192 j).trans
      (Cert.LibRowReduce.transpose_swap_apply x0 Cert.KernelIdeal.Facts₀.transposes_S8192x40_p1_0_S40x8192 (⟨9, by omega⟩ : Fin 40) j)
  · exact (slice_row_apply (transpose S40x8192 [1, 0] x0 Cert.KernelIdeal.Facts₀.transposes_S8192x40_p1_0_S40x8192) 11 (by omega)
      Cert.KernelIdeal.Facts₀.slices_S40x8192_o11_0_S1x8192 j).trans
      (Cert.LibRowReduce.transpose_swap_apply x0 Cert.KernelIdeal.Facts₀.transposes_S8192x40_p1_0_S40x8192 (⟨11, by omega⟩ : Fin 40) j)
  · exact (slice_row_apply (transpose S40x8192 [1, 0] x0 Cert.KernelIdeal.Facts₀.transposes_S8192x40_p1_0_S40x8192) 13 (by omega)
      Cert.KernelIdeal.Facts₀.slices_S40x8192_o13_0_S1x8192 j).trans
      (Cert.LibRowReduce.transpose_swap_apply x0 Cert.KernelIdeal.Facts₀.transposes_S8192x40_p1_0_S40x8192 (⟨13, by omega⟩ : Fin 40) j)
  · exact (slice_row_apply (transpose S40x8192 [1, 0] x0 Cert.KernelIdeal.Facts₀.transposes_S8192x40_p1_0_S40x8192) 14 (by omega)
      Cert.KernelIdeal.Facts₀.slices_S40x8192_o14_0_S1x8192 j).trans
      (Cert.LibRowReduce.transpose_swap_apply x0 Cert.KernelIdeal.Facts₀.transposes_S8192x40_p1_0_S40x8192 (⟨14, by omega⟩ : Fin 40) j)
  · exact (slice_row_apply (transpose S40x8192 [1, 0] x0 Cert.KernelIdeal.Facts₀.transposes_S8192x40_p1_0_S40x8192) 15 (by omega)
      Cert.KernelIdeal.Facts₀.slices_S40x8192_o15_0_S1x8192 j).trans
      (Cert.LibRowReduce.transpose_swap_apply x0 Cert.KernelIdeal.Facts₀.transposes_S8192x40_p1_0_S40x8192 (⟨15, by omega⟩ : Fin 40) j)
  · exact (slice_row_apply (transpose S40x8192 [1, 0] x0 Cert.KernelIdeal.Facts₀.transposes_S8192x40_p1_0_S40x8192) 16 (by omega)
      Cert.KernelIdeal.Facts₀.slices_S40x8192_o16_0_S1x8192 j).trans
      (Cert.LibRowReduce.transpose_swap_apply x0 Cert.KernelIdeal.Facts₀.transposes_S8192x40_p1_0_S40x8192 (⟨16, by omega⟩ : Fin 40) j)
  · exact (slice_row_apply (transpose S40x8192 [1, 0] x0 Cert.KernelIdeal.Facts₀.transposes_S8192x40_p1_0_S40x8192) 17 (by omega)
      Cert.KernelIdeal.Facts₀.slices_S40x8192_o17_0_S1x8192 j).trans
      (Cert.LibRowReduce.transpose_swap_apply x0 Cert.KernelIdeal.Facts₀.transposes_S8192x40_p1_0_S40x8192 (⟨17, by omega⟩ : Fin 40) j)
  · exact (slice_row_apply (transpose S40x8192 [1, 0] x0 Cert.KernelIdeal.Facts₀.transposes_S8192x40_p1_0_S40x8192) 18 (by omega)
      Cert.KernelIdeal.Facts₀.slices_S40x8192_o18_0_S1x8192 j).trans
      (Cert.LibRowReduce.transpose_swap_apply x0 Cert.KernelIdeal.Facts₀.transposes_S8192x40_p1_0_S40x8192 (⟨18, by omega⟩ : Fin 40) j)
  · exact (slice_row_apply (transpose S40x8192 [1, 0] x0 Cert.KernelIdeal.Facts₀.transposes_S8192x40_p1_0_S40x8192) 20 (by omega)
      Cert.KernelIdeal.Facts₀.slices_S40x8192_o20_0_S1x8192 j).trans
      (Cert.LibRowReduce.transpose_swap_apply x0 Cert.KernelIdeal.Facts₀.transposes_S8192x40_p1_0_S40x8192 (⟨20, by omega⟩ : Fin 40) j)
  · exact (slice_row_apply (transpose S40x8192 [1, 0] x0 Cert.KernelIdeal.Facts₀.transposes_S8192x40_p1_0_S40x8192) 22 (by omega)
      Cert.KernelIdeal.Facts₀.slices_S40x8192_o22_0_S1x8192 j).trans
      (Cert.LibRowReduce.transpose_swap_apply x0 Cert.KernelIdeal.Facts₀.transposes_S8192x40_p1_0_S40x8192 (⟨22, by omega⟩ : Fin 40) j)
  · exact (slice_row_apply (transpose S40x8192 [1, 0] x0 Cert.KernelIdeal.Facts₀.transposes_S8192x40_p1_0_S40x8192) 23 (by omega)
      Cert.KernelIdeal.Facts₀.slices_S40x8192_o23_0_S1x8192 j).trans
      (Cert.LibRowReduce.transpose_swap_apply x0 Cert.KernelIdeal.Facts₀.transposes_S8192x40_p1_0_S40x8192 (⟨23, by omega⟩ : Fin 40) j)
  · exact (slice_row_apply (transpose S40x8192 [1, 0] x0 Cert.KernelIdeal.Facts₀.transposes_S8192x40_p1_0_S40x8192) 26 (by omega)
      Cert.KernelIdeal.Facts₀.slices_S40x8192_o26_0_S1x8192 j).trans
      (Cert.LibRowReduce.transpose_swap_apply x0 Cert.KernelIdeal.Facts₀.transposes_S8192x40_p1_0_S40x8192 (⟨26, by omega⟩ : Fin 40) j)
  · exact (slice_row_apply (transpose S40x8192 [1, 0] x0 Cert.KernelIdeal.Facts₀.transposes_S8192x40_p1_0_S40x8192) 29 (by omega)
      Cert.KernelIdeal.Facts₀.slices_S40x8192_o29_0_S1x8192 j).trans
      (Cert.LibRowReduce.transpose_swap_apply x0 Cert.KernelIdeal.Facts₀.transposes_S8192x40_p1_0_S40x8192 (⟨29, by omega⟩ : Fin 40) j)
  · exact (slice_row_apply (transpose S40x8192 [1, 0] x0 Cert.KernelIdeal.Facts₀.transposes_S8192x40_p1_0_S40x8192) 30 (by omega)
      Cert.KernelIdeal.Facts₀.slices_S40x8192_o30_0_S1x8192 j).trans
      (Cert.LibRowReduce.transpose_swap_apply x0 Cert.KernelIdeal.Facts₀.transposes_S8192x40_p1_0_S40x8192 (⟨30, by omega⟩ : Fin 40) j)
  · exact (slice_row_apply (transpose S40x8192 [1, 0] x0 Cert.KernelIdeal.Facts₀.transposes_S8192x40_p1_0_S40x8192) 31 (by omega)
      Cert.KernelIdeal.Facts₀.slices_S40x8192_o31_0_S1x8192 j).trans
      (Cert.LibRowReduce.transpose_swap_apply x0 Cert.KernelIdeal.Facts₀.transposes_S8192x40_p1_0_S40x8192 (⟨31, by omega⟩ : Fin 40) j)
  · exact (slice_row_apply (transpose S40x8192 [1, 0] x0 Cert.KernelIdeal.Facts₀.transposes_S8192x40_p1_0_S40x8192) 36 (by omega)
      Cert.KernelIdeal.Facts₀.slices_S40x8192_o36_0_S1x8192 j).trans
      (Cert.LibRowReduce.transpose_swap_apply x0 Cert.KernelIdeal.Facts₀.transposes_S8192x40_p1_0_S40x8192 (⟨36, by omega⟩ : Fin 40) j)

/-! ## The pointwise arithmetic -/

/-- The test "label = 1" at (k, j). -/
theorem pay6_apply (x1 : Vec Ideal S8192x18 .i32) (k : Fin 18) (j : Fin 8192) :
    k0_pay6 (F := Ideal) x1 (ix2 k j) = pos (x1 (ix2 j k)) :=
  (show k0_pay6 (F := Ideal) x1 (ix2 k j) = pos (k0_pay4 (F := Ideal) x1 (ix2 k j)) from rfl).trans
    (congrArg pos (pay4_apply x1 k j))

/-- The negated clamped entropy term at (k, j). -/
theorem pay7_apply (x0 : Vec Ideal S8192x40 .f32) (x1 : Vec Ideal S8192x18 .i32) (k : Fin 18) (j : Fin 8192) :
    k0_pay7 (F := Ideal) x0 x1 (ix2 k j) = entK (x0 (ix2 j (sel k))) (x1 (ix2 j k)) :=
  (show k0_pay7 (F := Ideal) x0 x1 (ix2 k j)
      = entK (k0_pay5 (F := Ideal) x0 (ix2 k j)) (k0_pay4 (F := Ideal) x1 (ix2 k j)) from rfl).trans
    (by rw [pay5_apply, pay4_apply])

/-! ## The sums -/

/-- At the extended reals the sum of an [a, b] f32 vector along axis 0, from the additive neutral word, is at column j
    the sum over k of the entries (k, j). -/
theorem colSum_apply {a b : ℕ} (v : FVec Ideal ⟨2, ![a, b]⟩ .f32) (acc : BitVec 32)
    (h : (⟨2, ![a, b]⟩ : Shape).Reduces [0] ⟨1, ![b]⟩) (hφ : FKind.Formats .f32)
    (hacc : acc = FKind.add.neutral .f32 hφ) (j : Fin b) :
    multiReduction .add [0] ⟨1, ![b]⟩ v acc h hφ hacc (ix1 j) = ∑ k : Fin a, v (ix2 k j) := by
  refine (Ideal.multiReduction_add_single v acc h hφ hacc (ix1 j)).trans ?_
  refine Finset.sum_congr rfl fun k _ => congrArg v ?_
  funext ax
  refine Fin.ext ?_
  match ax with
  | ⟨0, _⟩ => rfl
  | ⟨1, _⟩ => rfl

/-- The named constant is the rational 1/18. -/
theorem inv_18 : Named.named (F := Ideal) Cert.KernelIdeal.κ "inv_18" (φ := .f32) 0x3D638E39#32
    = ((1 / 18 : ℝ) : EReal) :=
  IdealRules.named_const.ideal_named_scalar _ _ _ _ rfl

/-- A length-8192 vector viewed as [1, 8192] holds at (r, j) the vector's entry j. -/
theorem rowCast_apply {α : Type} (v : S8192.Idx → α) (h : S8192.ShapeCasts S1x8192) (r : Fin 1) (j : Fin 8192) :
    shapeCast S1x8192 v h (ix2 r j) = v (ix1 j) :=
  Cert.LibRows.shapeCast_n_ab_apply v h r j j (by have := r.isLt; omega)

/-- A length-1 vector viewed as [1, 1] holds at (r, c) the vector's entry r. -/
theorem cellCast_apply {α : Type} (v : S1.Idx → α) (h : S1.ShapeCasts S1x1) (r c : Fin 1) :
    shapeCast S1x1 v h (ix2 r c) = v (ix1 r) :=
  Cert.LibRows.shapeCast_n_ab_apply v h r c r (by have := r.isLt; have := c.isLt; omega)

/-- One step's store into the accumulator, read at its cell: the accumulator's value plus the sum over the tile's rows
    of (the sum of the weights) times (the sum of the negated entropy terms times 1/18). -/
theorem pay1_apply (v25 : FVec Ideal S18x8192 .f32) (v28 : IVec S18x8192 1) (v43 : FVec Ideal S18x8192 .f32)
    (a : Vec Ideal S1x1 .f32) (y : S1x1.Idx) :
    k0_pay1 (F := Ideal) v25 v28 v43 a y
      = a y + ∑ j : Fin 8192,
          (∑ k : Fin 18, Scalar.select (v28 (ix2 k j)) (w 0x3F4CCCCD#32) (w 0x3E4CCCCD#32)
              * (Scalar.select (v28 (ix2 k j)) (w 0x3F800000#32 - v25 (ix2 k j)) (v25 (ix2 k j))
                * Scalar.select (v28 (ix2 k j)) (w 0x3F800000#32 - v25 (ix2 k j)) (v25 (ix2 k j))))
            * ((∑ k : Fin 18, v43 (ix2 k j)) * ((1 / 18 : ℝ) : EReal)) := by
  obtain ⟨r, c, rfl⟩ : ∃ r c, y = ix2 r c := ⟨y 0, y 1, eq_ix2 y⟩
  unfold k0_pay1
  refine (congrFun (shapeCast_self _ _) _).trans ?_
  refine (addf_apply _ _ _).trans ?_
  refine congrArg (a (ix2 r c) + ·) ?_
  refine (cellCast_apply _ _ r c).trans ?_
  refine (Cert.LibRows.rowSum_apply _ _ _ _ _ r).trans ?_
  refine Finset.sum_congr rfl fun j _ => ?_
  refine (mulf_apply _ _ _).trans ?_
  refine congrArg₂ (· * ·) ?_ ?_
  · refine (rowCast_apply _ _ r j).trans ?_
    exact colSum_apply _ _ _ _ _ j
  · refine (mulf_apply _ _ _).trans ?_
    refine congrArg₂ (· * ·) ?_ inv_18
    refine (rowCast_apply _ _ r j).trans ?_
    exact colSum_apply _ _ _ _ _ j

/-! ## One step -/

/-- One step adds to the accumulator the tile's sum of the sample values. -/
theorem stepAcc_apply (x0 : Vec Ideal S8192x40 .f32) (x1 : Vec Ideal S8192x18 .i32) (a : Vec Ideal S1x1 .f32)
    (y : S1x1.Idx) :
    stepAcc (F := Ideal) x0 x1 a y
      = a y + ∑ j : Fin 8192, sampleK (fun q : Fin 40 => x0 (ix2 j q)) (fun k : Fin 18 => x1 (ix2 j k)) := by
  unfold stepAcc
  refine (pay1_apply _ _ _ a y).trans ?_
  refine congrArg (a y + ·) (Finset.sum_congr rfl fun j _ => ?_)
  unfold sampleK
  refine congrArg₂ (· * ·) (Finset.sum_congr rfl fun k _ => ?_)
    (congrArg (· * ((1 / 18 : ℝ) : EReal)) (Finset.sum_congr rfl fun k _ => pay7_apply x0 x1 k j))
  rw [pay5_apply, pay6_apply]
  rfl

/-- The first step's store into the accumulator is zero. -/
theorem pay2_apply (y : S1x1.Idx) : k0_pay2 (F := Ideal) y = w 0x00000000#32 := by
  unfold k0_pay2
  exact congrFun (shapeCast_self _ _) y

/-- The first step's store into the output block is zero. -/
theorem pay3_apply (y : S8x128.Idx) : k0_pay3 (F := Ideal) y = w 0x00000000#32 := rfl

end Cert.KernelIdeal.BodyValue

end
-- ==== Proof.KOut.lean ====
/-
  What the kernel's program returns, over the extended reals.

  Row n of the batch has the sample value `fK n`. Grid step t loads rows 8192 t … 8192 t + 8191, so the accumulator
  after step t is the running total `runTotal fK t`; the [16,128] result array ends with half h's total in cell
  (8h, 0) and zeros elsewhere; and the host's sum of that array from zero is `totalK fK`.
-/
import proofs.«135765_j40261023433195_2_alg».proof.Proof.KBodyIdeal
import proofs.«135765_j40261023433195_2_alg».proof.Proof.KValue
import proofs.«135765_j40261023433195_2_alg».proof.Proof.Spec
import Idealize.ShloMosaic.Lib.IdealHost
import Idealize.ShloMosaic.PureOps.Ideal.Laws
import Idealize.ShloMosaic.Lib.StableHlo.Run

set_option maxRecDepth 16384

noncomputable section

namespace Cert.KernelIdeal.Out

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body Cert.FocalSpec
open scoped BigOperators

variable (m : (ℓ : Loc nD τ sig) → Buf (Elt Ideal) ℓ) (ρ : Dev nD → PrngReg)
open Cert.KernelIdeal.BodyValue

/-- The kernel's sample value of row `n`. -/
def fK (c : Dev nD) : ℕ → EReal := fun n =>
  sampleK (rowP (m ((c.tc : Thread nD τ).loc main_arg0)) n) (rowL (m ((c.tc : Thread nD τ).loc main_arg1)) n)

/-- The printed index maps over the grid: the input tiles move with the step, the output block with the half. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val / 64 ∧ win0_2.index t (1 : Fin 2) = 0 :=
  (by decide +kernel : ∀ t : Fin grid0.N, _)

/-- Row j of step t's prediction tile is row 8192 t + j of the prediction array. -/
theorem iblk0_apply (c : Dev nD) (t : Fin cfg0.N) (j : Fin 8192) (q : Fin 40) :
    (iblk m c 0 t : S8192x40.Idx → EReal) (ix2 j q)
      = rowP (m ((c.tc : Thread nD τ).loc main_arg0)) (t.val * 8192 + j.val) q := by
  have hN : t.val < 128 := lt_of_lt_of_eq t.isLt (show cfg0.N = 128 from N_0)
  have hlt : t.val * 8192 + j.val < 1048576 := by have := j.isLt; omega
  obtain ⟨e0, e1, -, -, -, -⟩ := idx_facts t
  unfold rowP; rw [dif_pos hlt]
  show V m c main_arg0 (((cfg0.win 0).blk t).view.emb (ix2 j q)) = _
  rw [V_main_arg0]
  refine congrArg (m ((c.tc : Thread nD τ).loc main_arg0)) ?_
  funext a; apply Fin.ext
  match a with
  | ⟨0, _⟩ => show win0_0.index t (0 : Fin 2) * 8192 + 1 * j.val = t.val * 8192 + j.val; omega
  | ⟨1, _⟩ => show win0_0.index t (1 : Fin 2) * 40 + 1 * q.val = q.val; omega

/-- Row j of step t's label tile is row 8192 t + j of the label array. -/
theorem iblk1_apply (c : Dev nD) (t : Fin cfg0.N) (j : Fin 8192) (k : Fin 18) :
    (iblk m c 1 t : S8192x18.Idx → BitVec 32) (ix2 j k)
      = rowL (m ((c.tc : Thread nD τ).loc main_arg1)) (t.val * 8192 + j.val) k := by
  have hN : t.val < 128 := lt_of_lt_of_eq t.isLt (show cfg0.N = 128 from N_0)
  have hlt : t.val * 8192 + j.val < 1048576 := by have := j.isLt; omega
  obtain ⟨-, -, e0, e1, -, -⟩ := idx_facts t
  unfold rowL; rw [dif_pos hlt]
  show V m c main_arg1 (((cfg0.win 1).blk t).view.emb (ix2 j k)) = _
  rw [V_main_arg1]
  refine congrArg (m ((c.tc : Thread nD τ).loc main_arg1)) ?_
  funext a; apply Fin.ext
  match a with
  | ⟨0, _⟩ => show win0_1.index t (0 : Fin 2) * 8192 + 1 * j.val = t.val * 8192 + j.val; omega
  | ⟨1, _⟩ => show win0_1.index t (1 : Fin 2) * 18 + 1 * k.val = k.val; omega

/-- Step t's tile sum of sample values. -/
theorem tile_eq (c : Dev nD) (t : Fin cfg0.N) :
    (∑ j : Fin 8192, sampleK (fun q : Fin 40 => (iblk m c 0 t : S8192x40.Idx → EReal) (ix2 j q))
        (fun k : Fin 18 => (iblk m c 1 t : S8192x18.Idx → BitVec 32) (ix2 j k)))
      = tileSum (fK m c) t.val := by
  unfold tileSum fK
  refine Finset.sum_congr rfl fun j _ => ?_
  rw [show (fun q : Fin 40 => (iblk m c 0 t : S8192x40.Idx → EReal) (ix2 j q))
      = rowP (m ((c.tc : Thread nD τ).loc main_arg0)) (t.val * 8192 + j.val) from funext fun q => iblk0_apply m c t j q,
    show (fun k : Fin 18 => (iblk m c 1 t : S8192x18.Idx → BitVec 32) (ix2 j k))
      = rowL (m ((c.tc : Thread nD τ).loc main_arg1)) (t.val * 8192 + j.val) from funext fun k => iblk1_apply m c t j k]

/-- The accumulator after step n is the running total of the sample values. -/
theorem accAt_val (c : Dev nD) : ∀ (n : ℕ) (hn : n < cfg0.N) (y : S1x1.Idx), accAt m c n hn y = runTotal (fK m c) n
  | 0, hn, y => by
    show stepAcc (F := Ideal) (iblk m c 0 ⟨0, hn⟩) (iblk m c 1 ⟨0, hn⟩) (k0_pay2 (F := Ideal)) y = _
    refine (stepAcc_apply (iblk m c 0 ⟨0, hn⟩) (iblk m c 1 ⟨0, hn⟩) (k0_pay2 (F := Ideal)) y).trans ?_
    rw [pay2_apply, tile_eq m c ⟨0, hn⟩]
    rfl
  | n + 1, hn, y => by
    show stepAcc (F := Ideal) (iblk m c 0 ⟨n + 1, hn⟩) (iblk m c 1 ⟨n + 1, hn⟩)
      (if (n + 1) % 64 = 0 then (k0_pay2 (F := Ideal)) else accAt m c n (Nat.lt_of_succ_lt hn)) y = _
    refine (stepAcc_apply (iblk m c 0 ⟨n + 1, hn⟩) (iblk m c 1 ⟨n + 1, hn⟩) _ y).trans ?_
    rw [tile_eq m c ⟨n + 1, hn⟩]
    show _ = (if (n + 1) % 64 = 0 then w 0x00000000#32 else runTotal (fK m c) n) + tileSum (fK m c) (n + 1)
    refine congrArg (· + tileSum (fK m c) (n + 1)) ?_
    by_cases h : (n + 1) % 64 = 0
    · rw [if_pos h, if_pos h]; exact pay2_apply y
    · rw [if_neg h, if_neg h]; exact accAt_val c n _ y

/-- The [16,128] array the kernel leaves. -/
def outG (c : Dev nD) : S16x128.Idx → EReal := fun i => outCell (fK m c) (i 0) (i 1)

/-- What a half's last step writes back is that half's block of `outG`. -/
theorem flushed_eq (c : Dev nD) (t : Fin cfg0.N) (h1 : t.val % 64 = 63) :
    (dats m 0 c).flushed 2 t = ((cfg0.win 2).blk t).view.read (Elt Ideal) (outG m c) := by
  have hN : t.val < 128 := lt_of_lt_of_eq t.isLt (show cfg0.N = 128 from N_0)
  obtain ⟨-, -, -, -, e0, e1⟩ := idx_facts t
  show (cfg0.win 2).cut (grid0.coords t) ((dats m 0 c).after 2 t) = _
  rw [after2]; unfold outAt; rw [if_pos h1]
  funext y
  show cornerOver (accAt m c t.val t.isLt) (k0_pay3 (F := Ideal)) y = outG m c (((cfg0.win 2).blk t).view.emb y)
  have he0 : ((((cfg0.win 2).blk t).view.emb y) 0).val = win0_2.index t (0 : Fin 2) * 8 + 1 * (y 0).val := rfl
  have he1 : ((((cfg0.win 2).blk t).view.emb y) 1).val = win0_2.index t (1 : Fin 2) * 128 + 1 * (y 1).val := rfl
  have hy0 : (y 0).val < 8 := (y 0).isLt
  have hy1 : (y 1).val < 128 := (y 1).isLt
  unfold cornerOver outG outCell
  by_cases hy : (y 0).val = 0 ∧ (y 1).val = 0
  · rw [if_pos hy, if_pos (by rw [he0, he1]; omega), accAt_val]
    refine congrArg (runTotal (fK m c)) ?_
    rw [he0]; omega
  · rw [if_neg hy, if_neg (by rw [he0, he1]; omega)]
    exact pay3_apply y

/-- An index of the result array is in step t's block iff each coordinate is in the block's range. -/
theorem mem_blk (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0).slice (win0_2.rect t)).set ↔ _
  rw [View.set_slice_whole, Rect.mem_set_unit]
  exact Iff.rfl

/-- The two halves' blocks, written back after steps 63 and 127, cover the result array. -/
theorem cover (i : S16x128.Idx) : ∃ t : Fin cfg0.N, (cfg0.win 2).flush t = true ∧ i ∈ ((cfg0.win 2).blk t).view.set := by
  have hi0 : (i 0).val < 16 := (i 0).isLt
  have hi1 : (i 1).val < 128 := (i 1).isLt
  have hN : cfg0.N = 128 := N_0
  have hlt : 64 * ((i 0).val / 8) + 63 < cfg0.N := by omega
  refine ⟨⟨64 * ((i 0).val / 8) + 63, hlt⟩, (flush0_2 _).mpr (by show (64 * ((i 0).val / 8) + 63) % 64 = 63; omega), ?_⟩
  rw [mem_blk]
  obtain ⟨-, -, -, -, e0, e1⟩ := idx_facts ⟨64 * ((i 0).val / 8) + 63, hlt⟩
  have e0' : win0_2.index ⟨64 * ((i 0).val / 8) + 63, hlt⟩ (0 : Fin 2) = (64 * ((i 0).val / 8) + 63) / 64 := e0
  intro a
  match a with
  | ⟨0, _⟩ =>
    show win0_2.index ⟨64 * ((i 0).val / 8) + 63, hlt⟩ (0 : Fin 2) * 8 ≤ (i 0).val ∧ (i 0).val < win0_2.index ⟨64 * ((i 0).val / 8) + 63, hlt⟩ (0 : Fin 2) * 8 + 8
    rw [e0']; omega
  | ⟨1, _⟩ =>
    show win0_2.index ⟨64 * ((i 0).val / 8) + 63, hlt⟩ (1 : Fin 2) * 128 ≤ (i 1).val ∧ (i 1).val < win0_2.index ⟨64 * ((i 0).val / 8) + 63, hlt⟩ (1 : Fin 2) * 128 + 128
    rw [e1]; omega

/-- The result array after the run. -/
theorem final (c : Dev nD) : (dats m 0 c).arrAt 2 cfg0.N = outG m c :=
  (dats m 0 c).arrAt_eq_of_cover 2 (outG m c) (fun t hf => flushed_eq m c t ((flush0_2 t).mp hf)) (cover)

/-- The host's sum of the result array from zero. -/
theorem tail_value (c : Dev nD) :
    Pipeline.afterTail₀ cfgs (dats m) 0 (V0 m) [hostOps1] c main_v1 = fun _ => totalK (fK m c) := by
  unfold Pipeline.afterTail₀
  show StableHlo.after hostOps1 _ (Proc.devRef .tc main_v1) = _
  after_results
  funext j
  refine (hostReduceAdd_apply _ _ _ _ j).trans ?_
  refine (Ideal.hostReduceAdd_total _ (fun b => b.elim0) _ _ j).trans ?_
  rw [show Pipeline.withArrays (cfgs 0).spec c (V0 m c) (fun w => (dats m 0 c).arrAt w (cfgs 0).N) (Proc.tc.devRef main_v0) = outG m c from
      (Pipeline.withArrays_arr spec0 launch0.win.arr_inj c _ _ 2).trans (final m c)]
  rw [sum_idx2]
  rfl

/-- The kernel's program runs, returns `totalK fK`, and leaves its argument arrays unchanged. -/
theorem run_value : θ_run defs (onTc (τ := τ) (main (F := Ideal))) ⟨m, fun _ => 0, ρ⟩ (fun r => ∀ c : Dev nD,
      r.2.mem ((c.tc : Thread nD τ).loc main_v1) = (fun _ => totalK (fK m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v1 (by decide)).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.KernelIdeal.Out

end
-- ==== Proof.RefRun.lean ====
/-
  The reference program's run. Its @main is a straight line of host operations with two outlined calls
  (the two selects written through a where-function); listing each callee's operations at its call site over
  that call's buffers gives one list of 54 operations, and @main is their sequence. From any memory
  with zero counters every weakly fair execution terminates, and every buffer ends at the fold of the
  operations' results over the launch contents; no operation writes an argument buffer.
-/
import proofs.«135765_j40261023433195_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations in order, each call's body listed at the call: the first where-function is two broadcasts
    of its scalar arguments and the select, the second is the select alone. -/
abbrev ops : List (HloOp τ sig (Elt F)) :=
  [ nullary main_c (fun i => lit0 (S18.rowMajor i)),
    nullary main_c_0 (constantI S_ 32 0#32),
    unary main_c_0 main_v0 (broadcastInDim S18 ![] bcast_S_S18 : (⟨S_, .i32⟩ : BufTy).Contents (Elt F) → (⟨S18, .i32⟩ : BufTy).Contents (Elt F)),
    binary main_c main_v0 main_v1 (cmpi .slt : (⟨S18, .i32⟩ : BufTy).Contents (Elt F) → (⟨S18, .i32⟩ : BufTy).Contents (Elt F) → (⟨S18, .i1⟩ : BufTy).Contents (Elt F)),
    nullary main_c_1 (constantI S_ 32 40#32),
    unary main_c_1 main_v2 (broadcastInDim S18 ![] bcast_S_S18 : (⟨S_, .i32⟩ : BufTy).Contents (Elt F) → (⟨S18, .i32⟩ : BufTy).Contents (Elt F)),
    binary main_c main_v2 main_v3 (addi : (⟨S18, .i32⟩ : BufTy).Contents (Elt F) → (⟨S18, .i32⟩ : BufTy).Contents (Elt F) → (⟨S18, .i32⟩ : BufTy).Contents (Elt F)),
    ternary main_v1 main_v3 main_c main_v4 (select : (⟨S18, .i1⟩ : BufTy).Contents (Elt F) → (⟨S18, .i32⟩ : BufTy).Contents (Elt F) → (⟨S18, .i32⟩ : BufTy).Contents (Elt F) → (⟨S18, .i32⟩ : BufTy).Contents (Elt F)),
    unary main_v4 main_v5 (broadcastInDim S18x1 ![0] bcast_S18_S18x1_0 : (⟨S18, .i32⟩ : BufTy).Contents (Elt F) → (⟨S18x1, .i32⟩ : BufTy).Contents (Elt F)),
    binary main_arg0 main_v5 main_v6 ((fun x i => Host.gather gather_S1048576x40_S18x1_S1048576x18_0_1_n_n_1_1_10485761 x i) : (⟨S1048576x40, .f32⟩ : BufTy).Contents (Elt F) → (⟨S18x1, .i32⟩ : BufTy).Contents (Elt F) → (⟨S1048576x18, .f32⟩ : BufTy).Contents (Elt F)),
    unary main_arg1 main_v7 (sitofp .f32 : (⟨S1048576x18, .i32⟩ : BufTy).Contents (Elt F) → (⟨S1048576x18, .f32⟩ : BufTy).Contents (Elt F)),
    nullary main_c_2 (constantI S_ 32 1#32),
    unary main_c_2 main_v8 (broadcastInDim S1048576x18 ![] bcast_S_S1048576x18 : (⟨S_, .i32⟩ : BufTy).Contents (Elt F) → (⟨S1048576x18, .i32⟩ : BufTy).Contents (Elt F)),
    binary main_arg1 main_v8 main_v9 (cmpi .eq : (⟨S1048576x18, .i32⟩ : BufTy).Contents (Elt F) → (⟨S1048576x18, .i32⟩ : BufTy).Contents (Elt F) → (⟨S1048576x18, .i1⟩ : BufTy).Contents (Elt F)),
    unary main_v6 main_v10 (Host.log : (⟨S1048576x18, .f32⟩ : BufTy).Contents (Elt F) → (⟨S1048576x18, .f32⟩ : BufTy).Contents (Elt F)),
    nullary main_cst (constant S_ .f32 0xC2C80000#32),
    unary main_cst main_v11 (broadcastInDim S1048576x18 ![] bcast_S_S1048576x18 : (⟨S_, .f32⟩ : BufTy).Contents (Elt F) → (⟨S1048576x18, .f32⟩ : BufTy).Contents (Elt F)),
    binary main_v10 main_v11 main_v12 (maximumf : (⟨S1048576x18, .f32⟩ : BufTy).Contents (Elt F) → (⟨S1048576x18, .f32⟩ : BufTy).Contents (Elt F) → (⟨S1048576x18, .f32⟩ : BufTy).Contents (Elt F)),
    unary main_v6 main_v13 (Host.negf : (⟨S1048576x18, .f32⟩ : BufTy).Contents (Elt F) → (⟨S1048576x18, .f32⟩ : BufTy).Contents (Elt F)),
    unary main_v13 main_v14 (Host.log1p : (⟨S1048576x18, .f32⟩ : BufTy).Contents (Elt F) → (⟨S1048576x18, .f32⟩ : BufTy).Contents (Elt F)),
    nullary main_cst_3 (constant S_ .f32 0xC2C80000#32),
    unary main_cst_3 main_v15 (broadcastInDim S1048576x18 ![] bcast_S_S1048576x18 : (⟨S_, .f32⟩ : BufTy).Contents (Elt F) → (⟨S1048576x18, .f32⟩ : BufTy).Contents (Elt F)),
    binary main_v14 main_v15 main_v16 (maximumf : (⟨S1048576x18, .f32⟩ : BufTy).Contents (Elt F) → (⟨S1048576x18, .f32⟩ : BufTy).Contents (Elt F) → (⟨S1048576x18, .f32⟩ : BufTy).Contents (Elt F)),
    binary main_v7 main_v12 main_v17 (mulf : (⟨S1048576x18, .f32⟩ : BufTy).Contents (Elt F) → (⟨S1048576x18, .f32⟩ : BufTy).Contents (Elt F) → (⟨S1048576x18, .f32⟩ : BufTy).Contents (Elt F)),
    nullary main_cst_4 (constant S_ .f32 0x3F800000#32),
    unary main_cst_4 main_v18 (broadcastInDim S1048576x18 ![] bcast_S_S1048576x18 : (⟨S_, .f32⟩ : BufTy).Contents (Elt F) → (⟨S1048576x18, .f32⟩ : BufTy).Contents (Elt F)),
    binary main_v18 main_v7 main_v19 (subf : (⟨S1048576x18, .f32⟩ : BufTy).Contents (Elt F) → (⟨S1048576x18, .f32⟩ : BufTy).Contents (Elt F) → (⟨S1048576x18, .f32⟩ : BufTy).Contents (Elt F)),
    binary main_v19 main_v16 main_v20 (mulf : (⟨S1048576x18, .f32⟩ : BufTy).Contents (Elt F) → (⟨S1048576x18, .f32⟩ : BufTy).Contents (Elt F) → (⟨S1048576x18, .f32⟩ : BufTy).Contents (Elt F)),
    binary main_v17 main_v20 main_v21 (addf : (⟨S1048576x18, .f32⟩ : BufTy).Contents (Elt F) → (⟨S1048576x18, .f32⟩ : BufTy).Contents (Elt F) → (⟨S1048576x18, .f32⟩ : BufTy).Contents (Elt F)),
    nullary main_cst_5 (constant S_ .f32 0x00000000#32),
    binary main_v21 main_cst_5 main_v22 ((fun x v => Host.reduceAdd x v reducesTo_S1048576x18_S1048576_d1 h_S_) : (⟨S1048576x18, .f32⟩ : BufTy).Contents (Elt F) → (⟨S_, .f32⟩ : BufTy).Contents (Elt F) → (⟨S1048576, .f32⟩ : BufTy).Contents (Elt F)),
    nullary main_cst_6 (constant S_ .f32 0x41900000#32),
    unary main_cst_6 main_v23 (broadcastInDim S1048576 ![] bcast_S_S1048576 : (⟨S_, .f32⟩ : BufTy).Contents (Elt F) → (⟨S1048576, .f32⟩ : BufTy).Contents (Elt F)),
    binary main_v22 main_v23 main_v24 (Host.divf : (⟨S1048576, .f32⟩ : BufTy).Contents (Elt F) → (⟨S1048576, .f32⟩ : BufTy).Contents (Elt F) → (⟨S1048576, .f32⟩ : BufTy).Contents (Elt F)),
    unary main_v24 main_v25 (Host.negf : (⟨S1048576, .f32⟩ : BufTy).Contents (Elt F) → (⟨S1048576, .f32⟩ : BufTy).Contents (Elt F)),
    nullary main_cst_7 (constant S_ .f32 0x3F4CCCCD#32),
    nullary main_cst_8 (constant S_ .f32 0x3E4CCCCD#32),
    TRef.unary (.of main_cst_7 : TRef sig ⟨S_, .f32⟩) main_call0.v0 (broadcastInDim S1048576x18 ![] bcast_S_S1048576x18),
    TRef.unary (.of main_cst_8 : TRef sig ⟨S_, .f32⟩) main_call0.v1 (broadcastInDim S1048576x18 ![] bcast_S_S1048576x18),
    TRef.ternary (.of main_v9) main_call0.v0 main_call0.v1 main_call0.v2 select,
    nullary main_cst_9 (constant S_ .f32 0x3F800000#32),
    unary main_cst_9 main_v27 (broadcastInDim S1048576x18 ![] bcast_S_S1048576x18 : (⟨S_, .f32⟩ : BufTy).Contents (Elt F) → (⟨S1048576x18, .f32⟩ : BufTy).Contents (Elt F)),
    binary main_v27 main_v6 main_v28 (subf : (⟨S1048576x18, .f32⟩ : BufTy).Contents (Elt F) → (⟨S1048576x18, .f32⟩ : BufTy).Contents (Elt F) → (⟨S1048576x18, .f32⟩ : BufTy).Contents (Elt F)),
    TRef.ternary (.of main_v9) (.of main_v28) (.of main_v6) main_call1.v0 select,
    nullary main_cst_10 (constant S_ .f32 0x40000000#32),
    unary main_cst_10 main_v30 (broadcastInDim S1048576x18 ![] bcast_S_S1048576x18 : (⟨S_, .f32⟩ : BufTy).Contents (Elt F) → (⟨S1048576x18, .f32⟩ : BufTy).Contents (Elt F)),
    binary main_v29 main_v30 main_v31 (Host.powf : (⟨S1048576x18, .f32⟩ : BufTy).Contents (Elt F) → (⟨S1048576x18, .f32⟩ : BufTy).Contents (Elt F) → (⟨S1048576x18, .f32⟩ : BufTy).Contents (Elt F)),
    unary main_v26 main_v32 (id : (⟨S1048576x18, .f32⟩ : BufTy).Contents (Elt F) → (⟨S1048576x18, .f32⟩ : BufTy).Contents (Elt F)),
    binary main_v32 main_v31 main_v33 (mulf : (⟨S1048576x18, .f32⟩ : BufTy).Contents (Elt F) → (⟨S1048576x18, .f32⟩ : BufTy).Contents (Elt F) → (⟨S1048576x18, .f32⟩ : BufTy).Contents (Elt F)),
    nullary main_cst_11 (constant S_ .f32 0x00000000#32),
    binary main_v33 main_cst_11 main_v34 ((fun x v => Host.reduceAdd x v reducesTo_S1048576x18_S1048576_d1 h_S_) : (⟨S1048576x18, .f32⟩ : BufTy).Contents (Elt F) → (⟨S_, .f32⟩ : BufTy).Contents (Elt F) → (⟨S1048576, .f32⟩ : BufTy).Contents (Elt F)),
    binary main_v34 main_v25 main_v35 (mulf : (⟨S1048576, .f32⟩ : BufTy).Contents (Elt F) → (⟨S1048576, .f32⟩ : BufTy).Contents (Elt F) → (⟨S1048576, .f32⟩ : BufTy).Contents (Elt F)),
    nullary main_cst_12 (constant S_ .f32 0x00000000#32),
    binary main_v35 main_cst_12 main_v36 ((fun x v => Host.reduceAdd x v reducesTo_S1048576_S_d0 h_S_) : (⟨S1048576, .f32⟩ : BufTy).Contents (Elt F) → (⟨S_, .f32⟩ : BufTy).Contents (Elt F) → (⟨S_, .f32⟩ : BufTy).Contents (Elt F)) ]

set_option maxRecDepth 2048 in
/-- @main is that straight line: the two functions unfolded at their calls, sequencing reassociated. -/
theorem main_eq (c : Dev nD) : main (F := F) c = seq ops := by
  simp only [main, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., nullary_bufs_sub ..,
    unary_bufs_sub .., binary_bufs_sub .., unary_bufs_sub .., nullary_bufs_sub .., unary_bufs_sub .., binary_bufs_sub ..,
    unary_bufs_sub .., unary_bufs_sub .., nullary_bufs_sub .., unary_bufs_sub .., binary_bufs_sub .., binary_bufs_sub ..,
    nullary_bufs_sub .., unary_bufs_sub .., binary_bufs_sub .., binary_bufs_sub .., binary_bufs_sub .., nullary_bufs_sub ..,
    binary_bufs_sub .., nullary_bufs_sub .., unary_bufs_sub .., binary_bufs_sub .., unary_bufs_sub .., nullary_bufs_sub ..,
    nullary_bufs_sub .., unary_bufs_sub .., unary_bufs_sub .., ternary_bufs_sub .., nullary_bufs_sub .., unary_bufs_sub ..,
    binary_bufs_sub .., ternary_bufs_sub .., nullary_bufs_sub .., unary_bufs_sub .., binary_bufs_sub .., unary_bufs_sub ..,
    binary_bufs_sub .., nullary_bufs_sub .., binary_bufs_sub .., binary_bufs_sub .., nullary_bufs_sub .., binary_bufs_sub ..⟩

/-- From any memory with zero counters: every weakly fair execution of @main on the TensorCore terminates, and
    every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefFrame.lean ====
/-
  No operation of the reference's line writes an argument buffer, so both arguments end as they started.
-/
import proofs.«135765_j40261023433195_2_alg».proof.Proof.RefRun

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

/-- The reference runs from any memory with zero counters and leaves both arguments unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_arg0).trans (arg0_eq _), (h c main_arg1).trans (arg1_eq _)⟩)
    (run_main m ρ)

end Cert.ReferenceIdeal.RefValue

end
-- ==== Proof.RefStages.lean ====
/-
  The stages of the reference's line, each named after what it holds, as functions of the two argument arrays:
  the selected predictions, the labels as numbers and as the test "label = 1", the clamped entropy terms and the
  focal weights, their sums over the attributes of each row, each row's value, and the sum of all rows.
-/
import proofs.«135765_j40261023433195_2_alg».proof.Proof.Gen.ReferenceIdeal
import Idealize.ShloMosaic.PureOps.Ideal

noncomputable section

namespace Cert.ReferenceIdeal.RefValue

open Cert.ReferenceIdeal Cert.ReferenceIdeal.Gen Idealize.ShloMosaic

/-- The table of selected columns as the gather reads it: a negative entry moved up by 40, then one column wide. -/
def colTable : IVec S18x1 32 :=
  broadcastInDim S18x1 ![0] bcast_S18_S18x1_0
    (select (cmpi .slt (fun i => lit0 (S18.rowMajor i)) (broadcastInDim S18 ![] bcast_S_S18 (constantI S_ 32 0#32)))
      (addi (fun i => lit0 (S18.rowMajor i)) (broadcastInDim S18 ![] bcast_S_S18 (constantI S_ 32 40#32)))
      (fun i => lit0 (S18.rowMajor i)))

/-- The selected predictions: column `sel k` of every row. -/
def pSel (x : FVec Ideal S1048576x40 .f32) : FVec Ideal S1048576x18 .f32 :=
  Host.gather gather_S1048576x40_S18x1_S1048576x18_0_1_n_n_1_1_10485761 x colTable
/-- The labels as numbers. -/
def labF (y : IVec S1048576x18 32) : FVec Ideal S1048576x18 .f32 := sitofp .f32 y
/-- The test "label = 1". -/
def isPos (y : IVec S1048576x18 32) : IVec S1048576x18 1 :=
  cmpi .eq y (broadcastInDim S1048576x18 ![] bcast_S_S1048576x18 (constantI S_ 32 1#32))
/-- A float word at every (row, attribute). -/
def bc (b : BitVec 32) : FVec Ideal S1048576x18 .f32 :=
  broadcastInDim S1048576x18 ![] bcast_S_S1048576x18 (constant S_ .f32 b)
/-- The clamped entropy terms. -/
def entArr (x : FVec Ideal S1048576x40 .f32) (y : IVec S1048576x18 32) : FVec Ideal S1048576x18 .f32 :=
  addf (mulf (labF y) (maximumf (Host.log (pSel x)) (bc 0xC2C80000#32)))
    (mulf (subf (bc 0x3F800000#32) (labF y)) (maximumf (Host.log1p (Host.negf (pSel x))) (bc 0xC2C80000#32)))
/-- Their sum over the attributes, row by row. -/
def entRow (x : FVec Ideal S1048576x40 .f32) (y : IVec S1048576x18 32) : FVec Ideal S1048576 .f32 :=
  Host.reduceAdd (entArr x y) (constant S_ .f32 0x00000000#32) reducesTo_S1048576x18_S1048576_d1 h_S_
/-- The negated mean entropy of each row. -/
def negMean (x : FVec Ideal S1048576x40 .f32) (y : IVec S1048576x18 32) : FVec Ideal S1048576 .f32 :=
  Host.negf (Host.divf (entRow x y) (broadcastInDim S1048576 ![] bcast_S_S1048576 (constant S_ .f32 0x41900000#32)))
/-- The focal weights. -/
def focArr (x : FVec Ideal S1048576x40 .f32) (y : IVec S1048576x18 32) : FVec Ideal S1048576x18 .f32 :=
  mulf (id (select (isPos y) (bc 0x3F4CCCCD#32) (bc 0x3E4CCCCD#32)))
    (Host.powf (select (isPos y) (subf (bc 0x3F800000#32) (pSel x)) (pSel x)) (bc 0x40000000#32))
/-- Their sum over the attributes, row by row. -/
def focRow (x : FVec Ideal S1048576x40 .f32) (y : IVec S1048576x18 32) : FVec Ideal S1048576 .f32 :=
  Host.reduceAdd (focArr x y) (constant S_ .f32 0x00000000#32) reducesTo_S1048576x18_S1048576_d1 h_S_
/-- Each row's value. -/
def rowVal (x : FVec Ideal S1048576x40 .f32) (y : IVec S1048576x18 32) : FVec Ideal S1048576 .f32 :=
  mulf (focRow x y) (negMean x y)
/-- The sum of all rows' values. -/
def total (x : FVec Ideal S1048576x40 .f32) (y : IVec S1048576x18 32) : FVec Ideal S_ .f32 :=
  Host.reduceAdd (rowVal x y) (constant S_ .f32 0x00000000#32) reducesTo_S1048576_S_d0 h_S_

end Cert.ReferenceIdeal.RefValue

end
-- ==== Proof.RefOut.lean ====
/-
  The fold of the reference's 54 operations at the result buffer is the last stage, the sum of all rows' values:
  each operation's result at its own buffer is its function of its operands' contents, every other buffer is left
  as it was, and the typed references' casts are the identity at literal references.
-/
import proofs.«135765_j40261023433195_2_alg».proof.Proof.RefRun
import proofs.«135765_j40261023433195_2_alg».proof.Proof.RefStages

noncomputable section

namespace Cert.ReferenceIdeal.RefValue

open Cert.ReferenceIdeal Cert.ReferenceIdeal.Gen Idealize.ShloMosaic Idealize.ShloMosaic.TcCoe Idealize.SL.Sem Idealize.ShloMosaic.StableHlo

attribute [local irreducible] Host.reduceAdd Host.gather in
set_option maxRecDepth 8192 in
set_option maxHeartbeats 400000 in
theorem out_eq (V : Valuation τ sig (Elt Ideal)) :
    after (ops (F := Ideal)) V (main_v36 : DevRef τ sig)
      = total (V (main_arg0 : DevRef τ sig)) (V (main_arg1 : DevRef τ sig)) := by
  after_results_simp
  unfold total rowVal focRow negMean entRow focArr entArr bc isPos labF pSel colTable
  rfl

end Cert.ReferenceIdeal.RefValue

end
-- ==== Proof.RefGather.lean ====
/-
  The reference's gather read at an index: result element (n, k) is the prediction array at row n and the column the
  start-index table names for k, and that table's entries, read signed and clamped, are the selected columns.
-/
import proofs.«135765_j40261023433195_2_alg».proof.Proof.RefStages
import proofs.«135765_j40261023433195_2_alg».proof.Proof.Spec
import Idealize.ShloMosaic.Lib.ValueIdx

noncomputable section

open scoped BigOperators

namespace Cert.ReferenceIdeal.RefValue

open Cert.ReferenceIdeal Cert.ReferenceIdeal.Gen Idealize.ShloMosaic Idealize.ShloMosaic.ValueIdx Cert.FocalSpec

/-! ## The gather -/

/-- The gather's dimension numbers: whole columns of the operand, one per start index. -/
abbrev gd : GatherDims S1048576x40 S18x1 S1048576x18 := gather_S1048576x40_S18x1_S1048576x18_0_1_n_n_1_1_10485761

/-- Result index (n, k) reads its start index at (k, 0). -/
theorem gd_siIdx (n : Fin 1048576) (k : Fin 18) (c : Fin gd.startIndexMap.length) :
    gd.siIdx (ix2 n k) c = (ix2 k (0 : Fin 1) : S18x1.Idx) := by
  funext b
  refine Fin.ext ?_
  match b with
  | ⟨0, _⟩ => rfl
  | ⟨1, _⟩ =>
    have : c.val = 0 := by
      have := c.isLt
      simp only [gd, gather_S1048576x40_S18x1_S1048576x18_0_1_n_n_1_1_10485761, List.length_singleton] at this
      omega
    simp only [GatherDims.siIdx]
    exact this

/-- The gather at (n, k): the operand at row n and the column the start index (k, 0) names, read signed and clamped
    into the 40 columns. -/
theorem gather_col_apply {α : Type} {w : Nat} (x : S1048576x40.Idx → α) (idx : IVec S18x1 w) (n : Fin 1048576) (k : Fin 18) :
    Host.gather gd x idx (ix2 n k)
      = x (ix2 n (⟨min (idx (ix2 k (0 : Fin 1))).toInt.toNat 39, by omega⟩ : Fin 40)) := by
  unfold Host.gather
  refine congrArg x ?_
  funext a
  refine Fin.ext ?_
  match a with
  | ⟨0, _⟩ =>
    show gd.start (ix2 n k) idx 0 + gd.batchCoord (ix2 n k) 0 + gd.offCoord (ix2 n k) 0 = n.val
    rw [GatherDims.batchCoord_eq_zero _ _ _ List.not_mem_nil]
    unfold GatherDims.start
    rw [dif_neg (by decide)]
    unfold GatherDims.offCoord
    rw [dif_pos (by decide)]
    simp only [Nat.zero_add, Nat.add_zero]
    rfl
  | ⟨1, _⟩ =>
    show gd.start (ix2 n k) idx 1 + gd.batchCoord (ix2 n k) 1 + gd.offCoord (ix2 n k) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gd.startIndexMap from List.mem_singleton.mpr rfl)]
    rw [gd_siIdx]
    rfl

/-- The table's entry for attribute k, clamped, is the selected column: no entry is negative, none is past 39. -/
theorem colTable_sel (k : Fin 18) :
    (⟨min (colTable (ix2 k (0 : Fin 1))).toInt.toNat 39, by omega⟩ : Fin 40) = sel k := by
  fin_cases k <;> rfl

/-- The selected predictions at (n, k): the prediction array at (n, sel k). -/
theorem pSel_apply (x : FVec Ideal S1048576x40 .f32) (n : Fin 1048576) (k : Fin 18) :
    pSel x (ix2 n k) = x (ix2 n (sel k)) := by
  unfold pSel
  refine (gather_col_apply x colTable n k).trans ?_
  rw [colTable_sel]

end Cert.ReferenceIdeal.RefValue

end
-- ==== Proof.RefRead.lean ====
/-
  The reference's stages read at an index. The entropy term and the focal weight at (row n, attribute k) are the
  specification's functions of the prediction at (n, sel k) and the label at (n, k); each row sum is the initial zero
  plus the sum over the 18 attributes; each row's value is the specification's sample value; and the result is the
  zero word plus the sum of all rows' values.
-/
import proofs.«135765_j40261023433195_2_alg».proof.Proof.RefGather
import proofs.«135765_j40261023433195_2_alg».proof.Proof.LibRowReduce
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx Cert.FocalSpec

/-! ## The element stages -/

/-- The entropy term at (n, k) is the specification's, of the prediction at (n, sel k) and the label at (n, k). -/
theorem entArr_apply (x : FVec Ideal S1048576x40 .f32) (y : IVec S1048576x18 32) (n : Fin 1048576) (k : Fin 18) :
    entArr x y (ix2 n k) = entR (x (ix2 n (sel k))) (y (ix2 n k)) := by
  rw [← pSel_apply x n k]
  rfl

/-- The focal weight at (n, k) is the specification's, of the same prediction and label. -/
theorem focArr_apply (x : FVec Ideal S1048576x40 .f32) (y : IVec S1048576x18 32) (n : Fin 1048576) (k : Fin 18) :
    focArr x y (ix2 n k) = focR (x (ix2 n (sel k))) (y (ix2 n k)) := by
  rw [← pSel_apply x n k]
  rfl

/-! ## The row sums and each row's value -/

theorem entRow_apply (x : FVec Ideal S1048576x40 .f32) (y : IVec S1048576x18 32) (n : Fin 1048576) :
    entRow x y (ix1 n) = w 0x00000000#32 + ∑ k : Fin 18, entR (x (ix2 n (sel k))) (y (ix2 n k)) := by
  unfold entRow
  refine (Cert.LibRowReduce.hostRowSum_apply (entArr x y) (constant (F := Ideal) S_ .f32 0x00000000#32)
    reducesTo_S1048576x18_S1048576_d1 (by decide) h_S_ n).trans ?_
  exact congrArg (_ + ·) (Finset.sum_congr rfl fun k _ => entArr_apply x y n k)

theorem focRow_apply (x : FVec Ideal S1048576x40 .f32) (y : IVec S1048576x18 32) (n : Fin 1048576) :
    focRow x y (ix1 n) = w 0x00000000#32 + ∑ k : Fin 18, focR (x (ix2 n (sel k))) (y (ix2 n k)) := by
  unfold focRow
  refine (Cert.LibRowReduce.hostRowSum_apply (focArr x y) (constant (F := Ideal) S_ .f32 0x00000000#32)
    reducesTo_S1048576x18_S1048576_d1 (by decide) h_S_ n).trans ?_
  exact congrArg (_ + ·) (Finset.sum_congr rfl fun k _ => focArr_apply x y n k)

/-- The negated mean entropy of row n: minus the row's entropy sum divided by the word 18.0. -/
theorem negMean_apply (x : FVec Ideal S1048576x40 .f32) (y : IVec S1048576x18 32) (n : Fin 1048576) :
    negMean x y (ix1 n) = -(Ideal.div (entRow x y (ix1 n)) (w 0x41900000#32)) := rfl

/-- Row n's value is the specification's sample value of row n of the predictions and row n of the labels. -/
theorem rowVal_apply (x : FVec Ideal S1048576x40 .f32) (y : IVec S1048576x18 32) (n : Fin 1048576) :
    rowVal x y (ix1 n) = sampleR (rowP x n.val) (rowL y n.val) := by
  have hP : ∀ j : Fin 40, rowP x n.val j = x (ix2 n j) := fun j => dif_pos n.isLt
  have hL : ∀ k : Fin 18, rowL y n.val k = y (ix2 n k) := fun k => dif_pos n.isLt
  unfold sampleR
  simp only [hP, hL]
  refine (mulf_apply (focRow x y) (negMean x y) (ix1 n)).trans ?_
  rw [negMean_apply, focRow_apply, entRow_apply]

/-! ## The sum of all rows -/

/-- A rank-1 index set is its one coordinate's range … -/
def idxEquiv1 {a : ℕ} : (⟨1, ![a]⟩ : Shape).Idx ≃ Fin a where
  toFun i := i 0
  invFun k := ix1 k
  left_inv i := (eq_ix1 i).symm
  right_inv _ := rfl

/-- … so a sum over it is the sum over the coordinate. -/
theorem sum_idx1 {M : Type*} [AddCommMonoid M] {a : ℕ} (f : (⟨1, ![a]⟩ : Shape).Idx → M) :
    ∑ i, f i = ∑ k : Fin a, f (ix1 k) := by
  rw [← Equiv.sum_comp (idxEquiv1 (a := a)).symm f]
  rfl

/-- The host's sum of an [a] array over its one axis, into the scalar shape: the initial value plus the sum of all
    entries. -/
theorem hostSumAll_apply {a : ℕ} {u : Shape} (v : FVec Ideal ⟨1, ![a]⟩ .f32) (init : u.Idx → Ideal .f32)
    (h' : (⟨1, ![a]⟩ : Shape).ReducesTo [0] ⟨0, ![]⟩) (hu : 0 < u.numel) (j : (⟨0, ![]⟩ : Shape).Idx) :
    Host.reduceAdd (F := Ideal) v init h' hu j = init (Shape.Idx.first hu) + ∑ k : Fin a, v (ix1 k) := by
  unfold Host.reduceAdd
  rw [Ideal.hostReduceAdd_def, Ideal.hostReduceAdd_total h' (fun b => b.elim0)]
  exact congrArg (_ + ·) (sum_idx1 v)

/-- The reference's result: at its one index, the specification's total of the sample values. -/
theorem total_eq (x : FVec Ideal S1048576x40 .f32) (y : IVec S1048576x18 32) :
    total x y = fun _ => totalR (fun n => sampleR (rowP x n) (rowL y n)) := by
  funext j
  unfold total totalR
  refine (hostSumAll_apply (rowVal x y) (constant (F := Ideal) S_ .f32 0x00000000#32) reducesTo_S1048576_S_d0 h_S_ j).trans ?_
  exact congrArg (_ + ·) (Finset.sum_congr rfl fun n _ => rowVal_apply x y n)

end Cert.ReferenceIdeal.RefValue

end
-- ==== Proof.RefValue.lean ====
/-
  The reference's run and value together: from any memory with zero counters every weakly fair execution of the
  reference terminates, its result buffer holds the specification's total of the sample values of the rows of its
  two arguments, and both arguments end unchanged.
-/
import proofs.«135765_j40261023433195_2_alg».proof.Proof.RefFrame
import proofs.«135765_j40261023433195_2_alg».proof.Proof.RefOut
import proofs.«135765_j40261023433195_2_alg».proof.Proof.RefRead

noncomputable section

namespace Cert.ReferenceIdeal.RefValue

open Idealize.ShloMosaic Idealize.ShloMosaic.TcCoe Idealize.SL.Sem Idealize.ShloMosaic.StableHlo

theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v36)
            = (fun _ => Cert.FocalSpec.totalR (fun n => Cert.FocalSpec.sampleR
                (Cert.FocalSpec.rowP (m ((c.tc : Thread Cert.ReferenceIdeal.nD Cert.ReferenceIdeal.τ).loc Cert.ReferenceIdeal.main_arg0)) n)
                (Cert.FocalSpec.rowL (m ((c.tc : Thread Cert.ReferenceIdeal.nD Cert.ReferenceIdeal.τ).loc Cert.ReferenceIdeal.main_arg1)) n)))
          ∧ r.2.mem ((c.tc : Thread _ _).loc Cert.ReferenceIdeal.main_arg0) = m ((c.tc : Thread _ _).loc Cert.ReferenceIdeal.main_arg0)
          ∧ r.2.mem ((c.tc : Thread _ _).loc Cert.ReferenceIdeal.main_arg1) = m ((c.tc : Thread _ _).loc Cert.ReferenceIdeal.main_arg1)) :=
  (θ_run Cert.ReferenceIdeal.defs _ _).mono
    (fun _ h c => ⟨((h c Cert.ReferenceIdeal.main_v36).trans (out_eq _)).trans (total_eq _ _),
      (h c Cert.ReferenceIdeal.main_arg0).trans (arg0_eq _),
      (h c Cert.ReferenceIdeal.main_arg1).trans (arg1_eq _)⟩)
    (run_main m ρ)

end Cert.ReferenceIdeal.RefValue

end
-- ==== Proof.Finite.lean ====
/-
  The precondition decoded: when the finiteness predicate of the argument arrays is all ones, every prediction is a
  real number. The predicate is the conjunction, over all entries x of the prediction array, of |x| < +∞; a
  conjunction that is 1 has every conjunct 1, and an extended real whose absolute value max x (-x) is below +∞ is
  neither -∞ nor +∞.
-/
import proofs.«135765_j40261023433195_2_alg».proof.Defs
import proofs.«135765_j40261023433195_2_alg».proof.Proof.Spec
import Idealize.ShloMosaic.Lib.ReduceAll

noncomputable section

namespace Cert.FocalSpec.Finite

open Idealize.ShloMosaic Idealize.SL.Sem

instance : Subsingleton Cert.Pre_finite_inputs.S_.Idx := ⟨fun a b => funext fun d => d.elim0⟩

/-- The word 0x7F800000 is +∞. -/
theorem ofBits_inf : Ideal.ofBits .f32 0x7F800000#32 = (⊤ : EReal) := by
  simp [Ideal.ofBits, Ideal.ieee]

/-- An extended real whose absolute value compares below +∞ is a real. -/
theorem real_of_abs_lt (v : EReal)
    (h : Ideal.cmp .olt (max v (-v)) (Ideal.ofBits .f32 0x7F800000#32) = 1#1) : ∃ r : ℝ, v = (r : EReal) := by
  rw [ofBits_inf] at h
  induction v using EReal.rec with
  | bot => simp [Ideal.cmp] at h
  | coe r => exact ⟨r, rfl⟩
  | top => simp [Ideal.cmp] at h

theorem real_of_pre [hP : Cert.Pre_finite_inputs.Facts]
    (x : FVec Ideal Cert.Pre_finite_inputs.S1048576x40 .f32) (y : IVec Cert.Pre_finite_inputs.S1048576x18 32)
    (h : Cert.Pre_finite_inputs.fn (F := Ideal) x y = (fun _ => 1#1)) :
    ∀ i : Cert.Pre_finite_inputs.S1048576x40.Idx, ∃ r : ℝ, x i = (r : EReal) := by
  intro i
  have h0 := congrFun h ValueIdx.ix0
  dsimp only [Cert.Pre_finite_inputs.fn] at h0
  exact real_of_abs_lt (x i) (Host.reduce_andi_all _ _ _ _ _ h0 i)

theorem real_of_pre_kernel [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg0) i
      = (r : EReal) :=
  real_of_pre _ _ (h c)

/-- Every entry of every row of the prediction array is a real (past the end a row is the real 0). -/
theorem rowP_real [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (n : ℕ) (j : Fin 40) :
    ∃ r : ℝ, rowP (m ((c.tc : Thread Cert.KernelIdeal.nD Cert.KernelIdeal.τ).loc Cert.KernelIdeal.main_arg0)) n j
      = (r : EReal) := by
  unfold rowP
  split_ifs with hn
  · exact real_of_pre_kernel m h c _
  · exact ⟨0, EReal.coe_zero.symm⟩

end Cert.FocalSpec.Finite

end
-- ==== Proof.lean ====
/-
  The certificate: a focal-loss kernel against its jnp reference, over the extended reals.

  Both programs take predictions [1048576, 40] and integer labels [1048576, 18] and return one number: the sum over the
  rows of (the sum over 18 selected attributes of a focal weight) times (the mean over those attributes of a clamped
  binary cross-entropy). The kernel walks the rows in 128 tiles of 8192, two halves of 64 steps, carries each half's
  running total in a scratch accumulator, leaves the two totals in a zero [16,128] array and sums that array; it negates
  each entropy term before summing, multiplies by the constant named 1/18 and squares by a product. The reference sums
  the entropy terms, divides by 18, negates, raises to the power 2.0 and sums over all rows. With every prediction a
  real number (the precondition) each row's two values are one real number, and the two ways of adding the rows up
  agree in any commutative monoid.

  The three frames: the kernel's pipeline at either float instance runs by the body's three control cases (first,
  middle, last step of a half); the reference is a straight line of host operations. The idealization replaced one
  literal by its name.
-/
import proofs.«135765_j40261023433195_2_alg».proof.Defs
import proofs.«135765_j40261023433195_2_alg».proof.Proof.Gen.Kernel
import proofs.«135765_j40261023433195_2_alg».proof.Proof.Gen.KernelIdeal
import proofs.«135765_j40261023433195_2_alg».proof.Proof.Gen.ReferenceIdeal
import proofs.«135765_j40261023433195_2_alg».proof.Proof.Gen.Pre_finite_inputs
import proofs.«135765_j40261023433195_2_alg».proof.Proof.KBodyBits
import proofs.«135765_j40261023433195_2_alg».proof.Proof.KBodyIdeal
import proofs.«135765_j40261023433195_2_alg».proof.Proof.KOut
import proofs.«135765_j40261023433195_2_alg».proof.Proof.RefFrame
import proofs.«135765_j40261023433195_2_alg».proof.Proof.RefValue
import proofs.«135765_j40261023433195_2_alg».proof.Proof.SpecLaws
import proofs.«135765_j40261023433195_2_alg».proof.Proof.Finite
import Idealize.ShloMosaic.PureOps.IdealRules
import Idealize.ShloMosaic.Adequacy
import Idealize.ShloMosaic.Init

noncomputable section

namespace Cert.Proof

open Idealize.ShloMosaic Idealize.SL.Sem Cert.FocalSpec

theorem frame_kernel : @Cert.frame_Kernel Cert.Kernel.Gen.facts Cert.Pre_finite_inputs.Gen.facts :=
  fun m ρ _ => Cert.Kernel.Body.frame (F := Bits) m ρ

theorem frame_kernel_ideal : @Cert.frame_KernelIdeal Cert.KernelIdeal.Gen.facts Cert.Pre_finite_inputs.Gen.facts :=
  fun m ρ _ => Cert.KernelIdeal.Body.frame (F := Ideal) m ρ

theorem frame_reference : @Cert.frame_ReferenceIdeal Cert.ReferenceIdeal.Gen.facts Cert.Pre_finite_inputs.Gen.facts :=
  fun m ρ _ => Cert.ReferenceIdeal.RefValue.frame (F := Ideal) m ρ

/-- The one rewrite of the idealization: the literal 0x3D638E39 is printed under the name "inv_18", which the
    certificate's table reads as 1/18. -/
theorem preserves : Cert.preserves_Kernel_KernelIdeal :=
  IdealRules.named_const.statement Cert.KernelIdeal.κ "inv_18" .f32 0x3D638E39#32 ((1 / 18 : ℝ) : EReal) rfl

/-- Both programs return the kernel's total of its sample values: the kernel by its run, the reference because its total
    of its own sample values is the same number — row by row the two sample values agree when the predictions are real,
    and the two orders of summation agree. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => fun _ => totalK (Cert.KernelIdeal.Out.fK m c), Cert.KernelIdeal.Out.run_value m ρ, ?_⟩
  refine (θ_run Cert.ReferenceIdeal.defs _ _).mono (fun r h c => ⟨?_, (h c).2.1, (h c).2.2⟩)
    (Cert.ReferenceIdeal.RefValue.run m' ρ')
  rw [(h c).1, (hagree c).1, (hagree c).2]
  funext _
  show totalR _ = totalK (Cert.KernelIdeal.Out.fK m c)
  rw [total_eq]
  unfold totalR Cert.KernelIdeal.Out.fK
  refine congrArg (_ + ·) (Finset.sum_congr rfl fun n _ => ?_)
  exact (sample_eq _ _ (fun j => Cert.FocalSpec.Finite.rowP_real m hpre c n.val j)).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
